-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v49)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v49) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x252x252 : Shape := ⟨4, ![8, 32, 252, 252]⟩
abbrev S_ : Shape := ⟨0, ![]⟩

class Facts : Prop where
  bcast_S_S8x32x252x252 : S_.BroadcastsInDim S8x32x252x252 (![] : Fin 0 → Fin S8x32x252x252.rank)
  reducesTo_S8x32x252x252_S_d0_1_2_3 : S8x32x252x252.ReducesTo [0, 1, 2, 3] S_
  h_S_ : 0 < S_.numel

variable [Facts]

def fn {F : FTy → Type} [FloatOps F] (main_arg0 : FVec F S8x32x252x252 .f32) (main_arg1 : FVec F S8x32x252x252 .f32) (main_arg2 : FVec F S8x32x252x252 .f32) : IVec S_ 1 :=
  let main_v0 : FVec F S8x32x252x252 .f32 := Host.absf main_arg0
  let main_cst : FVec F S_ .f32 := constant S_ .f32 0x7F800000#32
  let main_v1 : FVec F S8x32x252x252 .f32 := broadcastInDim S8x32x252x252 ![] bcast_S_S8x32x252x252 main_cst
  let main_v2 : IVec S8x32x252x252 1 := cmpf .olt main_v0 main_v1
  let main_c : IVec S_ 1 := constantI S_ 1 1#1
  let main_v3 : IVec S_ 1 := (fun x v => Host.reduce IntOp.andi x v reducesTo_S8x32x252x252_S_d0_1_2_3 h_S_) main_v2 main_c
  let main_v4 : FVec F S8x32x252x252 .f32 := Host.absf main_arg1
  let main_cst_0 : FVec F S_ .f32 := constant S_ .f32 0x7F800000#32
  let main_v5 : FVec F S8x32x252x252 .f32 := broadcastInDim S8x32x252x252 ![] bcast_S_S8x32x252x252 main_cst_0
  let main_v6 : IVec S8x32x252x252 1 := cmpf .olt main_v4 main_v5
  let main_c_1 : IVec S_ 1 := constantI S_ 1 1#1
  let main_v7 : IVec S_ 1 := (fun x v => Host.reduce IntOp.andi x v reducesTo_S8x32x252x252_S_d0_1_2_3 h_S_) main_v6 main_c_1
  let main_v8 : IVec S_ 1 := andi main_v3 main_v7
  let main_v9 : FVec F S8x32x252x252 .f32 := Host.absf main_arg2
  let main_cst_2 : FVec F S_ .f32 := constant S_ .f32 0x7F800000#32
  let main_v10 : FVec F S8x32x252x252 .f32 := broadcastInDim S8x32x252x252 ![] bcast_S_S8x32x252x252 main_cst_2
  let main_v11 : IVec S8x32x252x252 1 := cmpf .olt main_v9 main_v10
  let main_c_3 : IVec S_ 1 := constantI S_ 1 1#1
  let main_v12 : IVec S_ 1 := (fun x v => Host.reduce IntOp.andi x v reducesTo_S8x32x252x252_S_d0_1_2_3 h_S_) main_v11 main_c_3
  let main_v13 : IVec S_ 1 := andi main_v8 main_v12
  main_v13
-- ==== Kernel.lean ====
abbrev S8x32x252x252 : Shape := ⟨4, ![8, 32, 252, 252]⟩
abbrev S_ : Shape := ⟨0, ![]⟩
abbrev S8x32x1x252 : Shape := ⟨4, ![8, 32, 1, 252]⟩
abbrev S8x32x4x252 : Shape := ⟨4, ![8, 32, 4, 252]⟩
abbrev S8x32x256x252 : Shape := ⟨4, ![8, 32, 256, 252]⟩
abbrev S8x32x256x1 : Shape := ⟨4, ![8, 32, 256, 1]⟩
abbrev S8x32x256x4 : Shape := ⟨4, ![8, 32, 256, 4]⟩
abbrev S8x32x256x256 : Shape := ⟨4, ![8, 32, 256, 256]⟩
abbrev S8x32x8x32x8x32 : Shape := ⟨6, ![8, 32, 8, 32, 8, 32]⟩
abbrev S8x32x8x8x32x32 : Shape := ⟨6, ![8, 32, 8, 8, 32, 32]⟩
abbrev S8x2048x32x32 : Shape := ⟨4, ![8, 2048, 32, 32]⟩
abbrev S8x32x32x2048 : Shape := ⟨4, ![8, 32, 32, 2048]⟩
abbrev S8x1024x2048 : Shape := ⟨3, ![8, 1024, 2048]⟩
abbrev S8x2048 : Shape := ⟨2, ![8, 2048]⟩
abbrev S8x1x2048 : Shape := ⟨3, ![8, 1, 2048]⟩
abbrev S1x256x2048 : Shape := ⟨3, ![1, 256, 2048]⟩
abbrev S1x1024x2048 : Shape := ⟨3, ![1, 1024, 2048]⟩
abbrev S256x2048 : Shape := ⟨2, ![256, 2048]⟩
abbrev S1024x2048 : Shape := ⟨2, ![1024, 2048]⟩
abbrev S2048x1024 : Shape := ⟨2, ![2048, 1024]⟩
abbrev S256x1024 : Shape := ⟨2, ![256, 1024]⟩
abbrev S256 : Shape := ⟨1, ![256]⟩
abbrev S256x1 : Shape := ⟨2, ![256, 1]⟩
abbrev S8x32x32x32x8x8 : Shape := ⟨6, ![8, 32, 32, 32, 8, 8]⟩

abbrev nBuf : Space → Nat
  | .hbm => 89
  | .vmem => 8
  | .smem => 0
  | _ => 0

abbrev bufTy : (tb : Table) → Fin (tcTables nBuf tb) → BufTy
  | .hbm, ⟨0, _⟩ => ⟨S8x32x252x252, .f32⟩
  | .hbm, ⟨1, _⟩ => ⟨S8x32x252x252, .f32⟩
  | .hbm, ⟨2, _⟩ => ⟨S8x32x252x252, .f32⟩
  | .hbm, ⟨3, _⟩ => ⟨S_, .i32⟩
  | .hbm, ⟨4, _⟩ => ⟨S8x32x1x252, .f32⟩
  | .hbm, ⟨5, _⟩ => ⟨S8x32x1x252, .f32⟩
  | .hbm, ⟨6, _⟩ => ⟨S8x32x4x252, .f32⟩
  | .hbm, ⟨7, _⟩ => ⟨S8x32x4x252, .f32⟩
  | .hbm, ⟨8, _⟩ => ⟨S8x32x256x252, .f32⟩
  | .hbm, ⟨9, _⟩ => ⟨S8x32x256x1, .f32⟩
  | .hbm, ⟨10, _⟩ => ⟨S8x32x256x1, .f32⟩
  | .hbm, ⟨11, _⟩ => ⟨S8x32x256x4, .f32⟩
  | .hbm, ⟨12, _⟩ => ⟨S8x32x256x4, .f32⟩
  | .hbm, ⟨13, _⟩ => ⟨S8x32x256x256, .f32⟩
  | .hbm, ⟨14, _⟩ => ⟨S8x32x8x32x8x32, .f32⟩
  | .hbm, ⟨15, _⟩ => ⟨S8x32x8x8x32x32, .f32⟩
  | .hbm, ⟨16, _⟩ => ⟨S8x2048x32x32, .f32⟩
  | .hbm, ⟨17, _⟩ => ⟨S_, .i32⟩
  | .hbm, ⟨18, _⟩ => ⟨S8x32x1x252, .f32⟩
  | .hbm, ⟨19, _⟩ => ⟨S8x32x1x252, .f32⟩
  | .hbm, ⟨20, _⟩ => ⟨S8x32x4x252, .f32⟩
  | .hbm, ⟨21, _⟩ => ⟨S8x32x4x252, .f32⟩
  | .hbm, ⟨22, _⟩ => ⟨S8x32x256x252, .f32⟩
  | .hbm, ⟨23, _⟩ => ⟨S8x32x256x1, .f32⟩
  | .hbm, ⟨24, _⟩ => ⟨S8x32x256x1, .f32⟩
  | .hbm, ⟨25, _⟩ => ⟨S8x32x256x4, .f32⟩
  | .hbm, ⟨26, _⟩ => ⟨S8x32x256x4, .f32⟩
  | .hbm, ⟨27, _⟩ => ⟨S8x32x256x256, .f32⟩
  | .hbm, ⟨28, _⟩ => ⟨S8x32x8x32x8x32, .f32⟩
  | .hbm, ⟨29, _⟩ => ⟨S8x32x8x8x32x32, .f32⟩
  | .hbm, ⟨30, _⟩ => ⟨S8x2048x32x32, .f32⟩
  | .hbm, ⟨31, _⟩ => ⟨S_, .i32⟩
  | .hbm, ⟨32, _⟩ => ⟨S8x32x1x252, .f32⟩
  | .hbm, ⟨33, _⟩ => ⟨S8x32x1x252, .f32⟩
  | .hbm, ⟨34, _⟩ => ⟨S8x32x4x252, .f32⟩
  | .hbm, ⟨35, _⟩ => ⟨S8x32x4x252, .f32⟩
  | .hbm, ⟨36, _⟩ => ⟨S8x32x256x252, .f32⟩
  | .hbm, ⟨37, _⟩ => ⟨S8x32x256x1, .f32⟩
  | .hbm, ⟨38, _⟩ => ⟨S8x32x256x1, .f32⟩
  | .hbm, ⟨39, _⟩ => ⟨S8x32x256x4, .f32⟩
  | .hbm, ⟨40, _⟩ => ⟨S8x32x256x4, .f32⟩
  | .hbm, ⟨41, _⟩ => ⟨S8x32x256x256, .f32⟩
  | .hbm, ⟨42, _⟩ => ⟨S8x32x8x32x8x32, .f32⟩
  | .hbm, ⟨43, _⟩ => ⟨S8x32x8x8x32x32, .f32⟩
  | .hbm, ⟨44, _⟩ => ⟨S8x2048x32x32, .f32⟩
  | .hbm, ⟨45, _⟩ => ⟨S8x32x32x2048, .f32⟩
  | .hbm, ⟨46, _⟩ => ⟨S8x1024x2048, .f32⟩
  | .hbm, ⟨47, _⟩ => ⟨S8x32x32x2048, .f32⟩
  | .hbm, ⟨48, _⟩ => ⟨S8x1024x2048, .f32⟩
  | .hbm, ⟨49, _⟩ => ⟨S8x32x32x2048, .f32⟩
  | .hbm, ⟨50, _⟩ => ⟨S8x1024x2048, .f32⟩
  | .hbm, ⟨51, _⟩ => ⟨S8x1024x2048, .f32⟩
  | .hbm, ⟨52, _⟩ => ⟨S_, .f32⟩
  | .hbm, ⟨53, _⟩ => ⟨S8x2048, .f32⟩
  | .hbm, ⟨54, _⟩ => ⟨S8x1x2048, .f32⟩
  | .hbm, ⟨55, _⟩ => ⟨S8x1x2048, .f32⟩
  | .hbm, ⟨56, _⟩ => ⟨S_, .f32⟩
  | .hbm, ⟨57, _⟩ => ⟨S8x1x2048, .f32⟩
  | .hbm, ⟨58, _⟩ => ⟨S8x1x2048, .f32⟩
  | .hbm, ⟨59, _⟩ => ⟨S8x1024x2048, .f32⟩
  | .hbm, ⟨60, _⟩ => ⟨S8x1024x2048, .f32⟩
  | .hbm, ⟨61, _⟩ => ⟨S8x1024x2048, .f32⟩
  | .hbm, ⟨62, _⟩ => ⟨S_, .f32⟩
  | .hbm, ⟨63, _⟩ => ⟨S8x2048, .f32⟩
  | .hbm, ⟨64, _⟩ => ⟨S8x1x2048, .f32⟩
  | .hbm, ⟨65, _⟩ => ⟨S8x1x2048, .f32⟩
  | .hbm, ⟨66, _⟩ => ⟨S_, .f32⟩
  | .hbm, ⟨67, _⟩ => ⟨S8x1x2048, .f32⟩
  | .hbm, ⟨68, _⟩ => ⟨S8x1x2048, .f32⟩
  | .hbm, ⟨69, _⟩ => ⟨S8x1024x2048, .f32⟩
  | .hbm, ⟨70, _⟩ => ⟨S8x1024x2048, .f32⟩
  | .hbm, ⟨71, _⟩ => ⟨S8x1024x2048, .f32⟩
  | .hbm, ⟨72, _⟩ => ⟨S_, .f32⟩
  | .hbm, ⟨73, _⟩ => ⟨S8x2048, .f32⟩
  | .hbm, ⟨74, _⟩ => ⟨S8x1x2048, .f32⟩
  | .hbm, ⟨75, _⟩ => ⟨S8x1x2048, .f32⟩
  | .hbm, ⟨76, _⟩ => ⟨S_, .f32⟩
  | .hbm, ⟨77, _⟩ => ⟨S8x1x2048, .f32⟩
  | .hbm, ⟨78, _⟩ => ⟨S8x1x2048, .f32⟩
  | .hbm, ⟨79, _⟩ => ⟨S8x1024x2048, .f32⟩
  | .hbm, ⟨80, _⟩ => ⟨S8x1024x2048, .f32⟩
  | .hbm, ⟨81, _⟩ => ⟨S8x1024x2048, .bf16⟩
  | .hbm, ⟨82, _⟩ => ⟨S8x1024x2048, .bf16⟩
  | .hbm, ⟨83, _⟩ => ⟨S8x1024x2048, .bf16⟩
  | .hbm, ⟨84, _⟩ => ⟨S8x1024x2048, .f32⟩
  | .hbm, ⟨85, _⟩ => ⟨S8x32x32x32x8x8, .f32⟩
  | .hbm, ⟨86, _⟩ => ⟨S8x32x8x32x8x32, .f32⟩
  | .hbm, ⟨87, _⟩ => ⟨S8x32x256x256, .f32⟩
  | .hbm, ⟨88, _⟩ => ⟨S8x32x252x252, .f32⟩
  | .local _ .vmem, ⟨0, _⟩ => ⟨S1x256x2048, .bf16⟩
  | .local _ .vmem, ⟨1, _⟩ => ⟨S1x256x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1x1024x2048, .bf16⟩
  | .local _ .vmem, ⟨5, _⟩ => ⟨S1x1024x2048, .bf16⟩
  | .local _ .vmem, ⟨6, _⟩ => ⟨S1x256x2048, .f32⟩
  | .local _ .vmem, ⟨7, _⟩ => ⟨S1x256x2048, .f32⟩
  | _, _ => ⟨S8x32x252x252, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_2 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_4 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_6 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_v43 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S8x32x252x252_S8x32x1x252_0_0_0_0 : S8x32x252x252.Slices ![0, 0, 0, 0] S8x32x1x252
  slices_S8x32x252x252_S8x32x1x252_0_0_251_0 : S8x32x252x252.Slices ![0, 0, 251, 0] S8x32x1x252
  slices_S8x32x252x252_S8x32x4x252_0_0_247_0 : S8x32x252x252.Slices ![0, 0, 247, 0] S8x32x4x252
  concatenates_S8x32x252x252_S8x32x4x252_S8x32x256x252_d2 : Shape.Concatenates [S8x32x252x252, S8x32x4x252] S8x32x256x252 2
  slices_S8x32x256x252_S8x32x256x1_0_0_0_0 : S8x32x256x252.Slices ![0, 0, 0, 0] S8x32x256x1
  slices_S8x32x256x252_S8x32x256x1_0_0_0_251 : S8x32x256x252.Slices ![0, 0, 0, 251] S8x32x256x1
  slices_S8x32x256x252_S8x32x256x4_0_0_0_247 : S8x32x256x252.Slices ![0, 0, 0, 247] S8x32x256x4
  concatenates_S8x32x256x252_S8x32x256x4_S8x32x256x256_d3 : Shape.Concatenates [S8x32x256x252, S8x32x256x4] S8x32x256x256 3
  shapeCasts_S8x32x256x256_S8x32x8x32x8x32 : S8x32x256x256.ShapeCasts S8x32x8x32x8x32
  transposes_S8x32x8x32x8x32_S8x32x8x8x32x32_0_1_2_4_3_5 : S8x32x8x32x8x32.Transposes [0, 1, 2, 4, 3, 5] S8x32x8x8x32x32
  shapeCasts_S8x32x8x8x32x32_S8x2048x32x32 : S8x32x8x8x32x32.ShapeCasts S8x2048x32x32
  transposes_S8x2048x32x32_S8x32x32x2048_0_2_3_1 : S8x2048x32x32.Transposes [0, 2, 3, 1] S8x32x32x2048
  shapeCasts_S8x32x32x2048_S8x1024x2048 : S8x32x32x2048.ShapeCasts S8x1024x2048
  reducesTo_S8x1024x2048_S8x2048_d1 : S8x1024x2048.ReducesTo [1] S8x2048
  h_S_ : 0 < S_.numel
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  bcast_S8x1x2048_S8x1024x2048_0_1_2 : S8x1x2048.BroadcastsInDim S8x1024x2048 (![0, 1, 2] : Fin 3 → Fin S8x1024x2048.rank)
  bitsLt_bf16_f32 : FTy.bits .bf16 < FTy.bits .f32
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  transposes_S1024x2048_p1_0_S2048x1024 : S1024x2048.Transposes [1, 0] S2048x1024
  reduces_S256x1024_S256 : S256x1024.Reduces [1] S256
  shapeCasts_S256_S256x1 : S256.ShapeCasts S256x1
  broadcasts_S256x1_S256x1024 : S256x1.Broadcasts S256x1024
  shapeCasts_S256x2048_S1x256x2048 : S256x2048.ShapeCasts S1x256x2048
  shapeCasts_S8x1024x2048_S8x32x32x32x8x8 : S8x1024x2048.ShapeCasts S8x32x32x32x8x8
  transposes_S8x32x32x32x8x8_S8x32x8x32x8x32_0_3_4_1_5_2 : S8x32x32x32x8x8.Transposes [0, 3, 4, 1, 5, 2] S8x32x8x32x8x32
  shapeCasts_S8x32x8x32x8x32_S8x32x256x256 : S8x32x8x32x8x32.ShapeCasts S8x32x256x256
  slices_S8x32x256x256_S8x32x252x252_0_0_0_0 : S8x32x256x256.Slices ![0, 0, 0, 0] S8x32x252x252
  dot_S256x2048_S2048x1024_S256x1024_1_0_0_1_n_n_wf : DotDims.WF S256x2048 S2048x1024 S256x1024 [1] [0] [0] [1] [] []
  dot_S256x1024_S1024x2048_S256x2048_1_0_0_1_n_n_wf : DotDims.WF S256x1024 S1024x2048 S256x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x2048.size a ≤ S8x1024x2048.size a
  hwx0_0 : ∀ i : grid0.Coords, EltTy.bits .bf16 = 32 ∨ (Rect.block (s := S8x1024x2048) S1x256x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x2048.size a ≤ S8x1024x2048.size a
  hwx0_1 : ∀ i : grid0.Coords, EltTy.bits .bf16 = 32 ∨ (Rect.block (s := S8x1024x2048) S1x1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x2048.size a ≤ S8x1024x2048.size a
  hwx0_2 : ∀ i : grid0.Coords, EltTy.bits .bf16 = 32 ∨ (Rect.block (s := S8x1024x2048) S1x1024x2048.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S8x1024x2048.size a
  hwx0_3 : ∀ i : grid0.Coords, EltTy.bits .f32 = 32 ∨ (Rect.block (s := S8x1024x2048) S1x256x2048.size (cc0_transform_3 i) (hinb0_3 i)).WholeWords (EltTy.packing .f32)

variable [Facts₀]

def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf
def dot_S256x1024_S1024x2048_S256x2048_1_0_0_1_n_n : DotDims S256x1024 S1024x2048 S256x2048 where
  lhsContracting := [1]
  rhsContracting := [0]
  lhsNonContracting := [0]
  rhsNonContracting := [1]
  lhsBatch := []
  rhsBatch := []
  wf := dot_S256x1024_S1024x2048_S256x2048_1_0_0_1_n_n_wf

abbrev win0_0 : Pipeline.Window sig grid0 :=
  Pipeline.Window.ofSpec (Memref.whole main_v42) S1x256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v43) S1x1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v44) S1x1024x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v45) S1x256x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8x32x252x252 : Shape := ⟨4, ![8, 32, 252, 252]⟩
abbrev S_ : Shape := ⟨0, ![]⟩
abbrev S8x32x1x252 : Shape := ⟨4, ![8, 32, 1, 252]⟩
abbrev S8x32x4x252 : Shape := ⟨4, ![8, 32, 4, 252]⟩
abbrev S8x32x256x252 : Shape := ⟨4, ![8, 32, 256, 252]⟩
abbrev S8x32x256x1 : Shape := ⟨4, ![8, 32, 256, 1]⟩
abbrev S8x32x256x4 : Shape := ⟨4, ![8, 32, 256, 4]⟩
abbrev S8x32x256x256 : Shape := ⟨4, ![8, 32, 256, 256]⟩
abbrev S8x32x8x32x8x32 : Shape := ⟨6, ![8, 32, 8, 32, 8, 32]⟩
abbrev S8x32x8x8x32x32 : Shape := ⟨6, ![8, 32, 8, 8, 32, 32]⟩
abbrev S8x2048x32x32 : Shape := ⟨4, ![8, 2048, 32, 32]⟩
abbrev S8x32x32x2048 : Shape := ⟨4, ![8, 32, 32, 2048]⟩
abbrev S8x1024x2048 : Shape := ⟨3, ![8, 1024, 2048]⟩
abbrev S8x2048 : Shape := ⟨2, ![8, 2048]⟩
abbrev S8x1x2048 : Shape := ⟨3, ![8, 1, 2048]⟩
abbrev S8x1024x1024 : Shape := ⟨3, ![8, 1024, 1024]⟩
abbrev S8x1024 : Shape := ⟨2, ![8, 1024]⟩
abbrev S8x1024x1 : Shape := ⟨3, ![8, 1024, 1]⟩
abbrev S8x32x32x32x8x8 : Shape := ⟨6, ![8, 32, 32, 32, 8, 8]⟩

abbrev nBuf : Space → Nat
  | .hbm => 104
  | .vmem => 0
  | .smem => 0
  | _ => 0

abbrev bufTy : (tb : Table) → Fin (tcTables nBuf tb) → BufTy
  | .hbm, ⟨0, _⟩ => ⟨S8x32x252x252, .f32⟩
  | .hbm, ⟨1, _⟩ => ⟨S8x32x252x252, .f32⟩
  | .hbm, ⟨2, _⟩ => ⟨S8x32x252x252, .f32⟩
  | .hbm, ⟨3, _⟩ => ⟨S_, .i32⟩
  | .hbm, ⟨4, _⟩ => ⟨S8x32x1x252, .f32⟩
  | .hbm, ⟨5, _⟩ => ⟨S8x32x1x252, .f32⟩
  | .hbm, ⟨6, _⟩ => ⟨S8x32x4x252, .f32⟩
  | .hbm, ⟨7, _⟩ => ⟨S8x32x4x252, .f32⟩
  | .hbm, ⟨8, _⟩ => ⟨S8x32x256x252, .f32⟩
  | .hbm, ⟨9, _⟩ => ⟨S8x32x256x1, .f32⟩
  | .hbm, ⟨10, _⟩ => ⟨S8x32x256x1, .f32⟩
  | .hbm, ⟨11, _⟩ => ⟨S8x32x256x4, .f32⟩
  | .hbm, ⟨12, _⟩ => ⟨S8x32x256x4, .f32⟩
  | .hbm, ⟨13, _⟩ => ⟨S8x32x256x256, .f32⟩
  | .hbm, ⟨14, _⟩ => ⟨S8x32x8x32x8x32, .f32⟩
  | .hbm, ⟨15, _⟩ => ⟨S8x32x8x8x32x32, .f32⟩
  | .hbm, ⟨16, _⟩ => ⟨S8x2048x32x32, .f32⟩
  | .hbm, ⟨17, _⟩ => ⟨S_, .i32⟩
  | .hbm, ⟨18, _⟩ => ⟨S8x32x1x252, .f32⟩
  | .hbm, ⟨19, _⟩ => ⟨S8x32x1x252, .f32⟩
  | .hbm, ⟨20, _⟩ => ⟨S8x32x4x252, .f32⟩
  | .hbm, ⟨21, _⟩ => ⟨S8x32x4x252, .f32⟩
  | .hbm, ⟨22, _⟩ => ⟨S8x32x256x252, .f32⟩
  | .hbm, ⟨23, _⟩ => ⟨S8x32x256x1, .f32⟩
  | .hbm, ⟨24, _⟩ => ⟨S8x32x256x1, .f32⟩
  | .hbm, ⟨25, _⟩ => ⟨S8x32x256x4, .f32⟩
  | .hbm, ⟨26, _⟩ => ⟨S8x32x256x4, .f32⟩
  | .hbm, ⟨27, _⟩ => ⟨S8x32x256x256, .f32⟩
  | .hbm, ⟨28, _⟩ => ⟨S8x32x8x32x8x32, .f32⟩
  | .hbm, ⟨29, _⟩ => ⟨S8x32x8x8x32x32, .f32⟩
  | .hbm, ⟨30, _⟩ => ⟨S8x2048x32x32, .f32⟩
  | .hbm, ⟨31, _⟩ => ⟨S_, .i32⟩
  | .hbm, ⟨32, _⟩ => ⟨S8x32x1x252, .f32⟩
  | .hbm, ⟨33, _⟩ => ⟨S8x32x1x252, .f32⟩
  | .hbm, ⟨34, _⟩ => ⟨S8x32x4x252, .f32⟩
  | .hbm, ⟨35, _⟩ => ⟨S8x32x4x252, .f32⟩
  | .hbm, ⟨36, _⟩ => ⟨S8x32x256x252, .f32⟩
  | .hbm, ⟨37, _⟩ => ⟨S8x32x256x1, .f32⟩
  | .hbm, ⟨38, _⟩ => ⟨S8x32x256x1, .f32⟩
  | .hbm, ⟨39, _⟩ => ⟨S8x32x256x4, .f32⟩
  | .hbm, ⟨40, _⟩ => ⟨S8x32x256x4, .f32⟩
  | .hbm, ⟨41, _⟩ => ⟨S8x32x256x256, .f32⟩
  | .hbm, ⟨42, _⟩ => ⟨S8x32x8x32x8x32, .f32⟩
  | .hbm, ⟨43, _⟩ => ⟨S8x32x8x8x32x32, .f32⟩
  | .hbm, ⟨44, _⟩ => ⟨S8x2048x32x32, .f32⟩
  | .hbm, ⟨45, _⟩ => ⟨S8x32x32x2048, .f32⟩
  | .hbm, ⟨46, _⟩ => ⟨S8x1024x2048, .f32⟩
  | .hbm, ⟨47, _⟩ => ⟨S8x32x32x2048, .f32⟩
  | .hbm, ⟨48, _⟩ => ⟨S8x1024x2048, .f32⟩
  | .hbm, ⟨49, _⟩ => ⟨S8x32x32x2048, .f32⟩
  | .hbm, ⟨50, _⟩ => ⟨S8x1024x2048, .f32⟩
  | .hbm, ⟨51, _⟩ => ⟨S8x1024x2048, .f32⟩
  | .hbm, ⟨52, _⟩ => ⟨S_, .f32⟩
  | .hbm, ⟨53, _⟩ => ⟨S8x2048, .f32⟩
  | .hbm, ⟨54, _⟩ => ⟨S8x1x2048, .f32⟩
  | .hbm, ⟨55, _⟩ => ⟨S8x1x2048, .f32⟩
  | .hbm, ⟨56, _⟩ => ⟨S_, .f32⟩
  | .hbm, ⟨57, _⟩ => ⟨S8x1x2048, .f32⟩
  | .hbm, ⟨58, _⟩ => ⟨S8x1x2048, .f32⟩
  | .hbm, ⟨59, _⟩ => ⟨S8x1024x2048, .f32⟩
  | .hbm, ⟨60, _⟩ => ⟨S8x1024x2048, .f32⟩
  | .hbm, ⟨61, _⟩ => ⟨S8x1024x2048, .f32⟩
  | .hbm, ⟨62, _⟩ => ⟨S_, .f32⟩
  | .hbm, ⟨63, _⟩ => ⟨S8x2048, .f32⟩
  | .hbm, ⟨64, _⟩ => ⟨S8x1x2048, .f32⟩
  | .hbm, ⟨65, _⟩ => ⟨S8x1x2048, .f32⟩
  | .hbm, ⟨66, _⟩ => ⟨S_, .f32⟩
  | .hbm, ⟨67, _⟩ => ⟨S8x1x2048, .f32⟩
  | .hbm, ⟨68, _⟩ => ⟨S8x1x2048, .f32⟩
  | .hbm, ⟨69, _⟩ => ⟨S8x1024x2048, .f32⟩
  | .hbm, ⟨70, _⟩ => ⟨S8x1024x2048, .f32⟩
  | .hbm, ⟨71, _⟩ => ⟨S8x1024x2048, .f32⟩
  | .hbm, ⟨72, _⟩ => ⟨S_, .f32⟩
  | .hbm, ⟨73, _⟩ => ⟨S8x2048, .f32⟩
  | .hbm, ⟨74, _⟩ => ⟨S8x1x2048, .f32⟩
  | .hbm, ⟨75, _⟩ => ⟨S8x1x2048, .f32⟩
  | .hbm, ⟨76, _⟩ => ⟨S_, .f32⟩
  | .hbm, ⟨77, _⟩ => ⟨S8x1x2048, .f32⟩
  | .hbm, ⟨78, _⟩ => ⟨S8x1x2048, .f32⟩
  | .hbm, ⟨79, _⟩ => ⟨S8x1024x2048, .f32⟩
  | .hbm, ⟨80, _⟩ => ⟨S8x1024x2048, .f32⟩
  | .hbm, ⟨81, _⟩ => ⟨S8x1024x1024, .f32⟩
  | .hbm, ⟨82, _⟩ => ⟨S_, .f32⟩
  | .hbm, ⟨83, _⟩ => ⟨S8x1024x1024, .f32⟩
  | .hbm, ⟨84, _⟩ => ⟨S8x1024x1024, .f32⟩
  | .hbm, ⟨85, _⟩ => ⟨S_, .f32⟩
  | .hbm, ⟨86, _⟩ => ⟨S8x1024, .f32⟩
  | .hbm, ⟨87, _⟩ => ⟨S_, .f32⟩
  | .hbm, ⟨88, _⟩ => ⟨S8x1024, .f32⟩
  | .hbm, ⟨89, _⟩ => ⟨S8x1024, .f32⟩
  | .hbm, ⟨90, _⟩ => ⟨S8x1024x1, .f32⟩
  | .hbm, ⟨91, _⟩ => ⟨S8x1024x1024, .f32⟩
  | .hbm, ⟨92, _⟩ => ⟨S8x1024x1024, .f32⟩
  | .hbm, ⟨93, _⟩ => ⟨S8x1024x1024, .f32⟩
  | .hbm, ⟨94, _⟩ => ⟨S_, .f32⟩
  | .hbm, ⟨95, _⟩ => ⟨S8x1024, .f32⟩
  | .hbm, ⟨96, _⟩ => ⟨S8x1024x1, .f32⟩
  | .hbm, ⟨97, _⟩ => ⟨S8x1024x1024, .f32⟩
  | .hbm, ⟨98, _⟩ => ⟨S8x1024x1024, .f32⟩
  | .hbm, ⟨99, _⟩ => ⟨S8x1024x2048, .f32⟩
  | .hbm, ⟨100, _⟩ => ⟨S8x32x32x32x8x8, .f32⟩
  | .hbm, ⟨101, _⟩ => ⟨S8x32x8x32x8x32, .f32⟩
  | .hbm, ⟨102, _⟩ => ⟨S8x32x256x256, .f32⟩
  | .hbm, ⟨103, _⟩ => ⟨S8x32x252x252, .f32⟩
  | _, _ => ⟨S8x32x252x252, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_v6 : Ref sig .tc := ⟨.hbm, 10, rfl⟩
abbrev main_call0_v7 : Ref sig .tc := ⟨.hbm, 11, rfl⟩
abbrev main_call0_v8 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_c_1 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_call2_v5 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_v15 : Ref sig .tc := ⟨.hbm, 48, rfl⟩
abbrev main_v16 : Ref sig .tc := ⟨.hbm, 49, rfl⟩
abbrev main_v17 : Ref sig .tc := ⟨.hbm, 50, rfl⟩
abbrev main_v18 : Ref sig .tc := ⟨.hbm, 51, rfl⟩
abbrev main_cst : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_cst_2 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_cst_3 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_4 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_cst_5 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_6 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩
abbrev main_cst_7 : Ref sig .tc := ⟨.hbm, 82, rfl⟩
abbrev main_v43 : Ref sig .tc := ⟨.hbm, 83, rfl⟩
abbrev main_v44 : Ref sig .tc := ⟨.hbm, 84, rfl⟩
abbrev main_cst_8 : Ref sig .tc := ⟨.hbm, 85, rfl⟩
abbrev main_v45 : Ref sig .tc := ⟨.hbm, 86, rfl⟩
abbrev main_cst_9 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_cst_10 : Ref sig .tc := ⟨.hbm, 94, rfl⟩
abbrev main_v52 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩

abbrev nD : Nat := 1
abbrev τ : Topo := Topo.v7x

variable {F : FTy → Type} [FloatOps F]

class Facts₀ : Prop where
  slices_S8x32x252x252_S8x32x1x252_0_0_0_0 : S8x32x252x252.Slices ![0, 0, 0, 0] S8x32x1x252
  slices_S8x32x252x252_S8x32x1x252_0_0_251_0 : S8x32x252x252.Slices ![0, 0, 251, 0] S8x32x1x252
  slices_S8x32x252x252_S8x32x4x252_0_0_247_0 : S8x32x252x252.Slices ![0, 0, 247, 0] S8x32x4x252
  concatenates_S8x32x252x252_S8x32x4x252_S8x32x256x252_d2 : Shape.Concatenates [S8x32x252x252, S8x32x4x252] S8x32x256x252 2
  slices_S8x32x256x252_S8x32x256x1_0_0_0_0 : S8x32x256x252.Slices ![0, 0, 0, 0] S8x32x256x1
  slices_S8x32x256x252_S8x32x256x1_0_0_0_251 : S8x32x256x252.Slices ![0, 0, 0, 251] S8x32x256x1
  slices_S8x32x256x252_S8x32x256x4_0_0_0_247 : S8x32x256x252.Slices ![0, 0, 0, 247] S8x32x256x4
  concatenates_S8x32x256x252_S8x32x256x4_S8x32x256x256_d3 : Shape.Concatenates [S8x32x256x252, S8x32x256x4] S8x32x256x256 3
  shapeCasts_S8x32x256x256_S8x32x8x32x8x32 : S8x32x256x256.ShapeCasts S8x32x8x32x8x32
  transposes_S8x32x8x32x8x32_S8x32x8x8x32x32_0_1_2_4_3_5 : S8x32x8x32x8x32.Transposes [0, 1, 2, 4, 3, 5] S8x32x8x8x32x32
  shapeCasts_S8x32x8x8x32x32_S8x2048x32x32 : S8x32x8x8x32x32.ShapeCasts S8x2048x32x32
  transposes_S8x2048x32x32_S8x32x32x2048_0_2_3_1 : S8x2048x32x32.Transposes [0, 2, 3, 1] S8x32x32x2048
  shapeCasts_S8x32x32x2048_S8x1024x2048 : S8x32x32x2048.ShapeCasts S8x1024x2048
  reducesTo_S8x1024x2048_S8x2048_d1 : S8x1024x2048.ReducesTo [1] S8x2048
  h_S_ : 0 < S_.numel
  bcast_S8x2048_S8x1x2048_0_2 : S8x2048.BroadcastsInDim S8x1x2048 (![0, 2] : Fin 2 → Fin S8x1x2048.rank)
  bcast_S_S8x1x2048 : S_.BroadcastsInDim S8x1x2048 (![] : Fin 0 → Fin S8x1x2048.rank)
  bcast_S8x1x2048_S8x1024x2048_0_1_2 : S8x1x2048.BroadcastsInDim S8x1024x2048 (![0, 1, 2] : Fin 3 → Fin S8x1024x2048.rank)
  bcast_S_S8x1024x1024 : S_.BroadcastsInDim S8x1024x1024 (![] : Fin 0 → Fin S8x1024x1024.rank)
  reducesTo_S8x1024x1024_S8x1024_d2 : S8x1024x1024.ReducesTo [2] S8x1024
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  shapeCasts_S8x1024x2048_S8x32x32x32x8x8 : S8x1024x2048.ShapeCasts S8x32x32x32x8x8
  transposes_S8x32x32x32x8x8_S8x32x8x32x8x32_0_3_4_1_5_2 : S8x32x32x32x8x8.Transposes [0, 3, 4, 1, 5, 2] S8x32x8x32x8x32
  shapeCasts_S8x32x8x32x8x32_S8x32x256x256 : S8x32x8x32x8x32.ShapeCasts S8x32x256x256
  slices_S8x32x256x256_S8x32x252x252_0_0_0_0 : S8x32x256x256.Slices ![0, 0, 0, 0] S8x32x252x252
  dot_S8x1024x2048_S8x1024x2048_S8x1024x1024_2_2_1_1_0_0_wf : DotDims.WF S8x1024x2048 S8x1024x2048 S8x1024x1024 [2] [2] [1] [1] [0] [0]
  dot_S8x1024x1024_S8x1024x2048_S8x1024x2048_2_1_1_2_0_0_wf : DotDims.WF S8x1024x1024 S8x1024x2048 S8x1024x2048 [2] [1] [1] [2] [0] [0]

variable [Facts₀]

def dot_S8x1024x2048_S8x1024x2048_S8x1024x1024_2_2_1_1_0_0 : DotDims S8x1024x2048 S8x1024x2048 S8x1024x1024 where
  lhsContracting := [2]
  rhsContracting := [2]
  lhsNonContracting := [1]
  rhsNonContracting := [1]
  lhsBatch := [0]
  rhsBatch := [0]
  wf := dot_S8x1024x2048_S8x1024x2048_S8x1024x1024_2_2_1_1_0_0_wf
def dot_S8x1024x1024_S8x1024x2048_S8x1024x2048_2_1_1_2_0_0 : DotDims S8x1024x1024 S8x1024x2048 S8x1024x2048 where
  lhsContracting := [2]
  rhsContracting := [1]
  lhsNonContracting := [1]
  rhsNonContracting := [2]
  lhsBatch := [0]
  rhsBatch := [0]
  wf := dot_S8x1024x1024_S8x1024x2048_S8x1024x2048_2_1_1_2_0_0_wf

class Facts : Prop extends Facts₀ where

variable [Facts]
-- ==== Proof.LibPlainMatmul.lean ====
/-
  A plain matrix product read entry by entry over the extended reals.

  For the dimension numbers of an ordinary product, [M, K] by [K, N] with the left operand contracted on its
  second axis and the right operand on its first, the product accumulated into the zero array has at
  row p and column q the sum over k of (left at (p, k)) times (right at (k, q)). The contraction index of such a
  product has one coordinate, which ranges over K.
-/
import Idealize.ShloMosaic.PureOps.Ideal.Laws
import Idealize.ShloMosaic.Lib.ValueIdx

namespace Cert.Lib.PlainMatmul

open Idealize.ShloMosaic Idealize.ShloMosaic.ValueIdx

variable {M K N : ℕ}

/-- An ordinary product contracts one axis. -/
theorem rank_contr : (DotDims.plain M K N).contr.rank = 1 := rfl

/-- The contracted axis has K positions. -/
theorem size_contr : (DotDims.plain M K N).contr.size ⟨0, by rw [rank_contr]; exact Nat.one_pos⟩ = K := rfl

/-- The contraction positions are the numbers below K. -/
noncomputable abbrev pos : (DotDims.plain M K N).contr.Idx ≃ Fin K :=
  contrEquiv1 (DotDims.plain M K N) K rank_contr size_contr

/-- At output entry (p, q) and contraction position k the left operand is read at (p, k). -/
theorem lhsIdx_eq (p : Fin M) (q : Fin N) (k : Fin K) :
    (DotDims.plain M K N).lhsIdx (ix2 p q) (pos.symm k) = ix2 p k := by
  funext a
  apply Fin.ext
  match a with
  | ⟨0, _⟩ =>
    simp [DotDims.lhsIdx, DotDims.plain]
    rfl
  | ⟨1, _⟩ =>
    refine (DotDims.lhsIdx_val_of_single (DotDims.plain M K N) (cl := (1 : Fin 2)) rfl (ix2 p q) (pos.symm k)).trans ?_
    exact contrEquiv1_symm_val (DotDims.plain M K N) K rank_contr size_contr k

/-- At output entry (p, q) and contraction position k the right operand is read at (k, q). -/
theorem rhsIdx_eq (p : Fin M) (q : Fin N) (k : Fin K) :
    (DotDims.plain M K N).rhsIdx (ix2 p q) (pos.symm k) = ix2 k q := by
  funext a
  apply Fin.ext
  match a with
  | ⟨0, _⟩ =>
    refine (DotDims.rhsIdx_val_of_single (DotDims.plain M K N) (cr := (0 : Fin 2)) rfl (ix2 p q) (pos.symm k)).trans ?_
    exact contrEquiv1_symm_val (DotDims.plain M K N) K rank_contr size_contr k
  | ⟨1, _⟩ =>
    simp [DotDims.rhsIdx, DotDims.plain]
    rfl

/-- The product into the zero array, at entry (p, q), is the sum over k of the products of the operands' entries
    (p, k) and (k, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (pos (M := M) (K := K) (N := N)).symm]
  exact Finset.sum_congr rfl fun k _ => by rw [lhsIdx_eq, rhsIdx_eq]

end Cert.Lib.PlainMatmul
-- ==== Proof.LibColumn.lean ====
/-
  A vector laid out as a column, a column repeated across the lanes, and a matrix reduced along its rows,
  each read entry by entry.

  These are the layout steps of a row-wise reduction kept as a column: the reduced vector [a] is cast to
  [a, 1] and then repeated to [a, b]; entry (p, c) of the result is entry p of the vector. A reduction of an
  [a, b] matrix over its second axis ranges, at row r, over the entries (r, k) for k below b.
-/
import Idealize.ShloMosaic.Lib.Pipeline.Value
import Idealize.ShloMosaic.Lib.ValueIdx
import Idealize.ShloMosaic.PureOps.Ideal.Laws

namespace Cert.Lib.Column

open Idealize.ShloMosaic Idealize.ShloMosaic.ValueIdx

variable {α : Type}

/-- An [a] array cast to [a, 1] reads, at (i, u), the operand at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] column repeated to [a, b] reads, at (p, c), the column's entry p. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Reducing an [a, b] matrix over its second axis: the entries that fall on row r are (r, k), k below b. -/
theorem lift_row {a b : ℕ} (h : (⟨2, ![a, b]⟩ : Shape).Reduces [1] ⟨1, ![a]⟩) (r : Fin a) (k : Fin b) :
    h.lift (ix1 r) k = ix2 r k := by
  funext c
  apply Fin.ext
  match c with
  | ⟨0, _⟩ => rfl
  | ⟨1, _⟩ => rfl

/-- The sum of an [a, b] matrix over its second axis, at row r, is the sum over k of the entries (r, k). -/
theorem sum_rows {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  rw [Ideal.multiReduction_add_single]
  exact Finset.sum_congr rfl fun k _ => congrArg src (lift_row h r k)

/-- The maximum of an [a, b] matrix over its second axis, at row r, is the maximum, from the starting value, of the
    entries (r, k). -/
theorem max_rows {φ : FTy} {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (r : Fin a) :
    multiReduction .maximumf [1] ⟨1, ![a]⟩ src acc h hφ hacc (ix1 r)
      = (Finset.univ : Finset (Fin b)).fold max (Ideal.ofBits φ acc) (fun k => src (ix2 r k)) := by
  rw [Ideal.multiReduction_maximumf_single]
  exact congrArg (Finset.fold max (Ideal.ofBits φ acc) · Finset.univ) (funext fun k => congrArg src (lift_row h r k))

end Cert.Lib.Column
-- ==== Proof.AttnRow.lean ====
/-
  One row of scaled softmax attention over the extended reals.

  Given a query row q of D entries and L key rows and value rows of D entries each, the row's logits are the
  inner products of q with the key rows times a fixed scale; the weights are the exponentials of the logits
  less their maximum, divided by the sum of those exponentials; the result's entry d is the weighted sum of
  the value rows' entries d. Both programs compute exactly this, row by row: the kernel on a block of query
  rows with all key and value rows of one batch member resident, the reference on whole arrays.

  The scale and the value the maximum starts from are float words that occur identically in both programs;
  they are kept as words and never evaluated.
-/
import Idealize.ShloMosaic.PureOps.Ideal.Laws
import Idealize.ShloMosaic.Lib.ValueIdx

noncomputable section

namespace Cert.Attn

open Idealize.ShloMosaic

variable {L D : ℕ}

/-- The logit scale: the single-precision word both programs multiply the inner products by. -/
abbrev scale : EReal := Ideal.ofBits .f32 0x3CB504F3#32

/-- The value the running maximum starts from: the word of minus infinity. -/
abbrev floor : EReal := Ideal.ofBits .f32 0xFF800000#32

/-- The logit of query row q against key row m: their inner product, scaled. -/
def logit (q : Fin D → EReal) (k : Fin L → Fin D → EReal) (m : Fin L) : EReal :=
  (∑ d : Fin D, q d * k m d) * scale

/-- The largest logit of the row (from the starting value). -/
def top (s : Fin L → EReal) : EReal := (Finset.univ : Finset (Fin L)).fold max floor s

/-- The unnormalised weight of key m: the exponential of its logit less the row's maximum. -/
def weight (s : Fin L → EReal) (m : Fin L) : EReal := Ideal.exp (s m - top s)

/-- Entry d of the attention row: the value rows' entries d, weighted by the normalised weights. -/
def row (q : Fin D → EReal) (k v : Fin L → Fin D → EReal) (d : Fin D) : EReal :=
  ∑ m : Fin L, Ideal.div (weight (logit q k) m) (∑ m' : Fin L, weight (logit q k) m') * v m d

end Cert.Attn

end
-- ==== Proof.KernelBody.lean ====
/-
  What the kernel body stores, entry by entry.

  The body loads a block of 256 query rows and all 1024 key rows and value rows of one batch member, forms the
  256 x 1024 logits (the query block times the transposed key block, scaled), takes each row's maximum, the
  exponentials of the logits less it, each row's sum of those, the quotients, and multiplies the 256 x 1024
  weights by the value block. The narrowing of the weights to half precision before the second product is the
  identity on the extended reals. So entry (r, d) of what it stores is entry d of the attention row of query
  row r against the loaded key and value rows.
-/
import proofs.«149332_j88416196755895_2_alg».proof.Proof.Gen.KernelIdeal.Skeleton
import proofs.«149332_j88416196755895_2_alg».proof.Proof.LibPlainMatmul
import proofs.«149332_j88416196755895_2_alg».proof.Proof.LibColumn
import proofs.«149332_j88416196755895_2_alg».proof.Proof.AttnRow
import Idealize.ShloMosaic.Lib.ValueLayout

noncomputable section

namespace Cert.KernelIdeal.Body

open Idealize.ShloMosaic Idealize.ShloMosaic.ValueIdx Cert.KernelIdeal Cert.KernelIdeal.Gen Cert.Lib

variable (x0 : FVec Ideal S1x256x2048 .bf16) (x1 x2 : FVec Ideal S1x1024x2048 .bf16)

/-- The block of logits: the query block times the transposed key block, times the scale. -/
def logits : FVec Ideal S256x1024 .f32 :=
  mulf (matmul dot_S256x2048_S2048x1024_S256x1024_1_0_0_1_n_n none
      (shapeCast S256x2048 x0 shapeCasts_S1x256x2048_S256x2048)
      (transpose S2048x1024 [1, 0] (shapeCast S1024x2048 x1 shapeCasts_S1x1024x2048_S1024x2048) transposes_S1024x2048_p1_0_S2048x1024)
      (constant S256x1024 .f32 0x00000000#32))
    (broadcast S256x1024 (Scalar.ofBits .f32 0x3CB504F3#32))

/-- Entry (r, m) of the logits is the scaled inner product of query row r with key row m. -/
theorem logits_apply (r : Fin 256) (m : Fin 1024) :
    logits x0 x1 (ix2 r m)
      = Attn.logit (fun d => x0 (ix3 (0 : Fin 1) r d)) (fun m d => x1 (ix3 (0 : Fin 1) m d)) m := by
  unfold logits Attn.logit
  rw [mulf_apply, broadcast_apply]
  show FloatOps.matmul (F := Ideal) (DotDims.plain 256 2048 1024) none _ _ (constant ⟨2, ![256, 1024]⟩ .f32 0x00000000#32) (ix2 r m) * Attn.scale
    = (∑ d : Fin 2048, x0 (ix3 (0 : Fin 1) r d) * x1 (ix3 (0 : Fin 1) m d)) * Attn.scale
  rw [PlainMatmul.matmul_zero_apply]
  refine congrArg (· * Attn.scale) (Finset.sum_congr rfl fun d _ => ?_)
  rw [shapeCast_1ab_ab_apply, transpose_ix2_apply, shapeCast_1ab_ab_apply]

/-- The exponentials of the logits less their row's maximum. -/
def expo : FVec Ideal S256x1024 .f32 :=
  exp (subf (logits x0 x1)
    (broadcastTo S256x1024
      (shapeCast S256x1 (multiReduction .maximumf [1] S256 (logits x0 x1) 0xFF800000#32 reduces_S256x1024_S256 (.inl rfl) rfl)
        shapeCasts_S256_S256x1)
      broadcasts_S256x1_S256x1024))

/-- Entry (r, m) of those is the unnormalised weight of key m in query row r's attention row. -/
theorem expo_apply (r : Fin 256) (m : Fin 1024) :
    expo x0 x1 (ix2 r m)
      = Attn.weight (Attn.logit (fun d => x0 (ix3 (0 : Fin 1) r d)) (fun m d => x1 (ix3 (0 : Fin 1) m d))) m := by
  unfold expo Attn.weight
  show Ideal.exp (subf (F := Ideal) _ _ (ix2 r m)) = _
  rw [subf_apply, Column.broadcastTo_a1_ab_apply, Column.shapeCast_a_a1_apply, logits_apply]
  have hmax : multiReduction (F := Ideal) .maximumf [1] S256 (logits x0 x1) 0xFF800000#32 reduces_S256x1024_S256 (.inl rfl) rfl (ix1 r)
      = Attn.top (Attn.logit (fun d => x0 (ix3 (0 : Fin 1) r d)) (fun m d => x1 (ix3 (0 : Fin 1) m d))) := by
    refine (Column.max_rows (logits x0 x1) _ _ _ _ r).trans ?_
    unfold Attn.top
    exact congrArg (Finset.fold max _ · Finset.univ) (funext fun k => logits_apply x0 x1 r k)
  rw [hmax]

/-- The stored block is the weights (exponentials over their row sums) times the value block. -/
theorem pay_eq : k0_pay1 (F := Ideal) x0 x1 x2
    = shapeCast S1x256x2048
        (matmul dot_S256x1024_S1024x2048_S256x2048_1_0_0_1_n_n none
          (truncf .bf16
            (divf (expo x0 x1)
              (broadcastTo S256x1024
                (shapeCast S256x1 (multiReduction .add [1] S256 (expo x0 x1) 0x00000000#32 reduces_S256x1024_S256 (.inl rfl) rfl)
                  shapeCasts_S256_S256x1)
                broadcasts_S256x1_S256x1024))
            bitsLt_bf16_f32)
          (shapeCast S1024x2048 x2 shapeCasts_S1x1024x2048_S1024x2048)
          (constant S256x2048 .f32 0x00000000#32))
        shapeCasts_S256x2048_S1x256x2048 := rfl

/-- Entry (0, r, d) of the stored block is entry d of the attention row of query row r. -/
theorem pay_apply (r : Fin 256) (d : Fin 2048) :
    k0_pay1 (F := Ideal) x0 x1 x2 (ix3 (0 : Fin 1) r d)
      = Attn.row (fun d => x0 (ix3 (0 : Fin 1) r d)) (fun m d => x1 (ix3 (0 : Fin 1) m d))
          (fun m d => x2 (ix3 (0 : Fin 1) m d)) d := by
  rw [pay_eq, shapeCast_ab_1ab_apply]
  show FloatOps.matmul (F := Ideal) (DotDims.plain 256 1024 2048) none _ _ (constant ⟨2, ![256, 2048]⟩ .f32 0x00000000#32) (ix2 r d) = _
  rw [PlainMatmul.matmul_zero_apply]
  unfold Attn.row
  refine Finset.sum_congr rfl fun m _ => ?_
  rw [truncf_apply, divf_apply, Column.broadcastTo_a1_ab_apply, Column.shapeCast_a_a1_apply, shapeCast_1ab_ab_apply, expo_apply]
  have hsum : multiReduction (F := Ideal) .add [1] S256 (expo x0 x1) 0x00000000#32 reduces_S256x1024_S256 (.inl rfl) rfl (ix1 r)
      = ∑ m' : Fin 1024, Attn.weight (Attn.logit (fun d => x0 (ix3 (0 : Fin 1) r d)) (fun m d => x1 (ix3 (0 : Fin 1) m d))) m' := by
    refine (Column.sum_rows (expo x0 x1) _ _ _ _ r).trans ?_
    exact Finset.sum_congr rfl fun m' _ => expo_apply x0 x1 r m'
  rw [hsum]

end Cert.KernelIdeal.Body

end
-- ==== Proof.KernelValue.lean ====
/-
  The kernel program's result as one function of the three prepared arrays.

  The grid has 8 x 4 points; point (b, qi) stages query rows 256 qi .. 256 qi + 255 of batch member b and all
  1024 key rows and value rows of member b, and writes back rows 256 qi .. 256 qi + 255 of member b of the
  output. By the body's reading each written entry (b, l, d) is entry d of the attention row of query row
  (b, l) against member b's key and value rows; the 32 blocks tile the [8, 1024, 2048] output, so after the
  region it holds that function everywhere. The four host operations after the region regroup it into images.
-/
import proofs.«149332_j88416196755895_2_alg».proof.Proof.Gen.KernelIdeal.Frame
import proofs.«149332_j88416196755895_2_alg».proof.Proof.KernelBody
import Idealize.ShloMosaic.Lib.Pipeline.Value
import Idealize.ShloMosaic.Lib.StableHlo.Run

set_option maxRecDepth 16384

noncomputable section

namespace Cert.Attn

variable {L D : ℕ}

/-- The attention row depends only on the entries of its three operands. -/
theorem row_congr {q q' : Fin D → EReal} {k k' v v' : Fin L → Fin D → EReal} {d d' : Fin D}
    (hq : ∀ x, q x = q' x) (hk : ∀ i x, k i x = k' i x) (hv : ∀ i x, v i x = v' i x) (hd : d = d') :
    row q k v d = row q' k' v' d' := by
  have eq : q = q' := funext hq
  have ek : k = k' := funext fun i => funext (hk i)
  have ev : v = v' := funext fun i => funext (hv i)
  rw [eq, ek, ev, hd]

end Cert.Attn

namespace Cert.KernelIdeal.Whole

open Idealize.ShloMosaic Idealize.ShloMosaic.ValueIdx Idealize.ShloMosaic.TcCoe Idealize.SL.Sem
open Cert.KernelIdeal Cert.KernelIdeal.Gen
open Idealize.ShloMosaic.Pipeline (Dat Cfg Window)

variable (m : (ℓ : Loc nD τ sig) → Buf (Elt Ideal) ℓ) (ρ : Dev nD → PrngReg)

/-- Attention of whole arrays: entry (b, l, d) is entry d of the attention row of query row (b, l) against the key
    rows and value rows of batch member b. -/
def attend (Q K V : S8x1024x2048.Idx → EReal) : S8x1024x2048.Idx → EReal := fun i =>
  Attn.row (fun d => Q (ix3 (i 0 : Fin 8) (i 1 : Fin 1024) d)) (fun j d => K (ix3 (i 0 : Fin 8) j d))
    (fun j d => V (ix3 (i 0 : Fin 8) j d)) (i 2 : Fin 2048)

theorem hz : (![0, 0, 0] : Fin 3 → Nat) = fun _ => 0 := funext fun a => by fin_cases a <;> rfl

/-- The printed index maps over the grid: the query window moves with the output window; the key and value
    windows follow its batch coordinate only and take the member whole. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 3) = win0_3.index t (0 : Fin 3) ∧ win0_1.index t (1 : Fin 3) = 0 ∧ win0_1.index t (2 : Fin 3) = 0
    ∧ win0_2.index t (0 : Fin 3) = win0_3.index t (0 : Fin 3) ∧ win0_2.index t (1 : Fin 3) = 0 ∧ win0_2.index t (2 : Fin 3) = 0
    ∧ win0_3.index t (0 : Fin 3) ≤ 7 ∧ win0_3.index t (1 : Fin 3) ≤ 3 ∧ win0_3.index t (2 : Fin 3) = 0 :=
  (by decide +kernel : ∀ t : Fin grid0.N, _)

/-- Every block of the output is some point's. -/
theorem idx_onto : ∀ (q0 : Fin 8) (q1 : Fin 4), ∃ t : Fin cfg0.N, win0_3.index t = ![q0.val, q1.val, 0] :=
  (by decide +kernel : ∀ (q0 : Fin 8) (q1 : Fin 4), ∃ t : Fin grid0.N, win0_3.index t = ![q0.val, q1.val, 0])

/-- The query block at a point: its row r is row (index 1) * 256 + r of member (index 0). -/
theorem read_q (c : Dev nD) (t : Fin cfg0.N) (r : Fin 256) (d : Fin 2048) (b : Fin 8) (l : Fin 1024)
    (hb : b.val = win0_3.index t (0 : Fin 3)) (hl : l.val = win0_3.index t (1 : Fin 3) * 256 + r.val) :
    iblk m c 0 t (ix3 (0 : Fin 1) r d) = V m c main_v42 (ix3 b l d) := by
  obtain ⟨e0, e1, e2, -⟩ := idx_facts t
  show V m c main_v42 (((cfg0.win 0).blk t).view.emb (ix3 (0 : Fin 1) r d)) = V m c main_v42 (ix3 b l d)
  refine congrArg (V m c main_v42) (funext fun a => Fin.ext ?_)
  match a with
  | ⟨0, _⟩ => show win0_0.index t (0 : Fin 3) * 1 + 1 * 0 = b.val; omega
  | ⟨1, _⟩ => show win0_0.index t (1 : Fin 3) * 256 + 1 * r.val = l.val; omega
  | ⟨2, _⟩ => show win0_0.index t (2 : Fin 3) * 2048 + 1 * d.val = d.val; omega

/-- The key block at a point is member (index 0) whole. -/
theorem read_k (c : Dev nD) (t : Fin cfg0.N) (j : Fin 1024) (d : Fin 2048) (b : Fin 8)
    (hb : b.val = win0_3.index t (0 : Fin 3)) :
    iblk m c 1 t (ix3 (0 : Fin 1) j d) = V m c main_v43 (ix3 b j d) := by
  obtain ⟨-, -, -, e0, e1, e2, -⟩ := idx_facts t
  show V m c main_v43 (((cfg0.win 1).blk t).view.emb (ix3 (0 : Fin 1) j d)) = V m c main_v43 (ix3 b j d)
  refine congrArg (V m c main_v43) (funext fun a => Fin.ext ?_)
  match a with
  | ⟨0, _⟩ => show win0_1.index t (0 : Fin 3) * 1 + 1 * 0 = b.val; omega
  | ⟨1, _⟩ => show win0_1.index t (1 : Fin 3) * 1024 + 1 * j.val = j.val; omega
  | ⟨2, _⟩ => show win0_1.index t (2 : Fin 3) * 2048 + 1 * d.val = d.val; omega

/-- The value block at a point is member (index 0) whole. -/
theorem read_v (c : Dev nD) (t : Fin cfg0.N) (j : Fin 1024) (d : Fin 2048) (b : Fin 8)
    (hb : b.val = win0_3.index t (0 : Fin 3)) :
    iblk m c 2 t (ix3 (0 : Fin 1) j d) = V m c main_v44 (ix3 b j d) := by
  obtain ⟨-, -, -, -, -, -, e0, e1, e2, -⟩ := idx_facts t
  show V m c main_v44 (((cfg0.win 2).blk t).view.emb (ix3 (0 : Fin 1) j d)) = V m c main_v44 (ix3 b j d)
  refine congrArg (V m c main_v44) (funext fun a => Fin.ext ?_)
  match a with
  | ⟨0, _⟩ => show win0_2.index t (0 : Fin 3) * 1 + 1 * 0 = b.val; omega
  | ⟨1, _⟩ => show win0_2.index t (1 : Fin 3) * 1024 + 1 * j.val = j.val; omega
  | ⟨2, _⟩ => show win0_2.index t (2 : Fin 3) * 2048 + 1 * d.val = d.val; omega

/-- What point t writes back is block t of the attention of the three staged arrays. -/
theorem flushed_eq (c : Dev nD) (t : Fin cfg0.N) :
    (dats m 0 c).flushed 3 t
      = ((cfg0.win 3).blk t).view.read (Elt Ideal) (attend (V m c main_v42) (V m c main_v43) (V m c main_v44)) := by
  show (cfg0.win 3).cut (grid0.coords t) ((dats m 0 c).after 3 t) = _
  rw [after0_3]
  unfold out0_3
  rw [View.canon_unit_zero hz]
  simp only [View.ld_unit_zero (S := S1x256x2048) hz, View.ld_unit_zero (S := S1x1024x2048) hz]
  funext y
  have hy0 : (y 0).val = 0 := by have h1 : (y 0).val < 1 := (y 0).isLt; omega
  have hy : y = ix3 (0 : Fin 1) (y 1 : Fin 256) (y 2 : Fin 2048) := by
    funext a
    match a with
    | ⟨0, _⟩ => exact Fin.ext hy0
    | ⟨1, _⟩ => rfl
    | ⟨2, _⟩ => rfl
  rw [hy]
  show k0_pay1 (F := Ideal) (iblk m c 0 t) (iblk m c 1 t) (iblk m c 2 t) (ix3 (0 : Fin 1) (y 1 : Fin 256) (y 2 : Fin 2048))
    = attend (V m c main_v42) (V m c main_v43) (V m c main_v44) (((cfg0.win 3).blk t).view.emb (ix3 (0 : Fin 1) (y 1 : Fin 256) (y 2 : Fin 2048)))
  refine (Body.pay_apply (iblk m c 0 t) (iblk m c 1 t) (iblk m c 2 t) (y 1 : Fin 256) (y 2 : Fin 2048)).trans ?_
  obtain ⟨-, -, -, -, -, -, -, -, -, -, -, e2⟩ := idx_facts t
  have he0 : ((((cfg0.win 3).blk t).view.emb (ix3 (0 : Fin 1) (y 1 : Fin 256) (y 2 : Fin 2048))) 0).val = win0_3.index t (0 : Fin 3) := by
    show win0_3.index t (0 : Fin 3) * 1 + 1 * 0 = _; omega
  have he1 : ((((cfg0.win 3).blk t).view.emb (ix3 (0 : Fin 1) (y 1 : Fin 256) (y 2 : Fin 2048))) 1).val
      = win0_3.index t (1 : Fin 3) * 256 + (y 1).val := by
    show win0_3.index t (1 : Fin 3) * 256 + 1 * (y 1).val = _; omega
  have he2 : ((((cfg0.win 3).blk t).view.emb (ix3 (0 : Fin 1) (y 1 : Fin 256) (y 2 : Fin 2048))) 2).val = (y 2).val := by
    show win0_3.index t (2 : Fin 3) * 2048 + 1 * (y 2).val = _; omega
  unfold attend
  exact Attn.row_congr (fun x => read_q m c t _ x _ _ he0 he1) (fun j x => read_k m c t j x _ he0)
    (fun j x => read_v m c t j x _ he0) (Fin.ext he2.symm)

/-- An index of the output array is in point t's block iff each coordinate is in the block's range. -/
theorem mem_blk (t : Fin cfg0.N) (i : S8x1024x2048.Idx) :
    i ∈ ((cfg0.win 3).blk t).view.set ↔ ∀ a : Fin 3, win0_3.index t a * S1x256x2048.size a ≤ (i a).val
      ∧ (i a).val < win0_3.index t a * S1x256x2048.size a + S1x256x2048.size a := by
  show i ∈ ((View.whole main_v45).slice (win0_3.rect t)).set ↔ _
  rw [View.set_slice_whole, Rect.mem_set_unit]
  exact Iff.rfl

/-- Every entry of the output array is in some point's block: entry (b, l, d) in that of point (b, l / 256). -/
theorem cover (i : S8x1024x2048.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 2048 := (i 2).isLt
  obtain ⟨t, ht⟩ := idx_onto ⟨(i 0).val, hi0⟩ ⟨(i 1).val / 256, by omega⟩
  have q0 : win0_3.index t (0 : Fin 3) = (i 0).val := congrFun ht 0
  have q1 : win0_3.index t (1 : Fin 3) = (i 1).val / 256 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- The output array after the region. -/
theorem final (c : Dev nD) :
    (dats m 0 c).arrAt 3 cfg0.N = attend (V m c main_v42) (V m c main_v43) (V m c main_v44) :=
  (dats m 0 c).arrAt_eq_of_cover 3 _ (fun t _ => flushed_eq m c t) cover

/-- The four host operations after the region as one function: the tokens regrouped into 8 x 8 windows, the windows
    laid back into 256 x 256 images, the images cut to 252 x 252. -/
def back (Y : FVec Ideal S8x1024x2048 .f32) : FVec Ideal S8x32x252x252 .f32 :=
  extractStridedSlice S8x32x252x252 ![0, 0, 0, 0]
    (shapeCast S8x32x256x256
      (transpose S8x32x8x32x8x32 [0, 3, 4, 1, 5, 2] (shapeCast S8x32x32x32x8x8 Y shapeCasts_S8x1024x2048_S8x32x32x32x8x8)
        transposes_S8x32x32x32x8x8_S8x32x8x32x8x32_0_3_4_1_5_2)
      shapeCasts_S8x32x8x32x8x32_S8x32x256x256)
    slices_S8x32x256x256_S8x32x252x252_0_0_0_0

/-- The program's result buffer after the run. -/
theorem tail_eq (c : Dev nD) :
    Pipeline.afterTail₀ cfgs (dats m) 0 (V0 m) [hostOps1] c main_v49
      = back (attend (V m c main_v42) (V m c main_v43) (V m c main_v44)) := by
  have hw : (Pipeline.withArrays spec0 c (V0 m c) (fun w => (dats m 0 c).arrAt w cfg0.N) (Proc.devRef .tc main_v45)
      : FVec Ideal S8x1024x2048 .f32) = attend (V m c main_v42) (V m c main_v43) (V m c main_v44) :=
    (Pipeline.withArrays_arr spec0 launch0.win.arr_inj c (V0 m c) (fun w => (dats m 0 c).arrAt w cfg0.N) 3).trans (final m c)
  unfold Pipeline.afterTail₀
  show StableHlo.after hostOps1 _ (Proc.devRef .tc main_v49) = _
  after_results
  exact congrArg back hw

/-- The run, read: the result buffer at the regrouped attention of the staged arrays, the arguments unchanged. -/
theorem run : θ_run defs (onTc (τ := τ) (main (F := Ideal))) ⟨m, fun _ => 0, ρ⟩ fun r => ∀ c : Dev nD,
      r.2.mem ((c.tc : Thread nD τ).loc main_v49) = back (attend (V m c main_v42) (V m c main_v43) (V m c main_v44))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v49 (Pipeline.mem_restRefs_of main_v49 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.Whole

end
-- ==== Proof.RefRun.lean ====
/-
  The reference's run, read back.

  The reference is one straight line of host operations: for each of the three arguments the reflect-padding of
  its last two axes from 252 to 256, the cut into 8 x 8 windows and the regrouping to 1024 tokens of 2048
  features, then the division by the token-axis norm (first stretch, 78 operations); the scaled inner products
  of the first prepared array's rows with the second's, each row's softmax, and its product with the third
  (second stretch, 19 operations); and the regrouping of the 1024 x 2048 result back to 256 x 256 images cut
  to 252 x 252 (third stretch, 4 operations). Every weakly fair execution ends with each buffer at the fold of
  these operations over the launch contents; the fold splits at the two stretch boundaries, the middle stretch
  read as one function of the three prepared arrays and the last as one function of the middle's result.
-/
import proofs.«149332_j88416196755895_2_alg».proof.Proof.Gen.ReferenceIdeal
import Idealize.ShloMosaic.Lib.StableHlo.Run
import Idealize.ShloMosaic.Lib.Pipeline.Regions
import Idealize.ShloMosaic.PureOps.Ideal

noncomputable section

namespace Cert.ReferenceIdeal.Straight

open Cert.ReferenceIdeal Cert.ReferenceIdeal.Gen Idealize.ShloMosaic Idealize.ShloMosaic.TcCoe Idealize.SL.Sem Idealize.ShloMosaic.StableHlo

variable {F : FTy → Type} [FloatOps F]

/-- The first stretch: the three arguments prepared (padded, cut into windows, regrouped, normalised). -/
abbrev opsPrep : List (HloOp τ sig (Elt F)) :=
  [ StableHlo.nullary main_c (constantI S_ 32 0#32),
    StableHlo.TRef.unary (.of main_arg0 : StableHlo.TRef sig ⟨S8x32x252x252, .f32⟩) (.of main_call0_v0 : StableHlo.TRef sig ⟨S8x32x1x252, .f32⟩) (extractStridedSlice S8x32x1x252 ![0, 0, 0, 0] · slices_S8x32x252x252_S8x32x1x252_0_0_0_0),
    StableHlo.TRef.unary (.of main_arg0 : StableHlo.TRef sig ⟨S8x32x252x252, .f32⟩) (.of main_call0_v1 : StableHlo.TRef sig ⟨S8x32x1x252, .f32⟩) (extractStridedSlice S8x32x1x252 ![0, 0, 251, 0] · slices_S8x32x252x252_S8x32x1x252_0_0_251_0),
    StableHlo.TRef.unary (.of main_arg0 : StableHlo.TRef sig ⟨S8x32x252x252, .f32⟩) (.of main_call0_v2 : StableHlo.TRef sig ⟨S8x32x4x252, .f32⟩) (extractStridedSlice S8x32x4x252 ![0, 0, 247, 0] · slices_S8x32x252x252_S8x32x4x252_0_0_247_0),
    StableHlo.TRef.unary (.of main_call0_v2 : StableHlo.TRef sig ⟨S8x32x4x252, .f32⟩) (.of main_call0_v3 : StableHlo.TRef sig ⟨S8x32x4x252, .f32⟩) (Host.reverse [2]),
    StableHlo.TRef.binary (.of main_arg0 : StableHlo.TRef sig ⟨S8x32x252x252, .f32⟩) main_call0_call0.v0 (.of main_call0_v4 : StableHlo.TRef sig ⟨S8x32x256x252, .f32⟩) (fun a b => concatenate S8x32x256x252 2 [⟨S8x32x252x252, a⟩, ⟨S8x32x4x252, b⟩] concatenates_S8x32x252x252_S8x32x4x252_S8x32x256x252_d2),
    StableHlo.TRef.unary (.of main_call0_v4 : StableHlo.TRef sig ⟨S8x32x256x252, .f32⟩) (.of main_call0_v5 : StableHlo.TRef sig ⟨S8x32x256x1, .f32⟩) (extractStridedSlice S8x32x256x1 ![0, 0, 0, 0] · slices_S8x32x256x252_S8x32x256x1_0_0_0_0),
    StableHlo.TRef.unary (.of main_call0_v4 : StableHlo.TRef sig ⟨S8x32x256x252, .f32⟩) (.of main_call0_v6 : StableHlo.TRef sig ⟨S8x32x256x1, .f32⟩) (extractStridedSlice S8x32x256x1 ![0, 0, 0, 251] · slices_S8x32x256x252_S8x32x256x1_0_0_0_251),
    StableHlo.TRef.unary (.of main_call0_v4 : StableHlo.TRef sig ⟨S8x32x256x252, .f32⟩) (.of main_call0_v7 : StableHlo.TRef sig ⟨S8x32x256x4, .f32⟩) (extractStridedSlice S8x32x256x4 ![0, 0, 0, 247] · slices_S8x32x256x252_S8x32x256x4_0_0_0_247),
    StableHlo.TRef.unary (.of main_call0_v7 : StableHlo.TRef sig ⟨S8x32x256x4, .f32⟩) (.of main_call0_v8 : StableHlo.TRef sig ⟨S8x32x256x4, .f32⟩) (Host.reverse [3]),
    StableHlo.TRef.binary (.of main_call0_v4 : StableHlo.TRef sig ⟨S8x32x256x252, .f32⟩) main_call0_call1.v0 (.of main_v0 : StableHlo.TRef sig ⟨S8x32x256x256, .f32⟩) (fun a b => concatenate S8x32x256x256 3 [⟨S8x32x256x252, a⟩, ⟨S8x32x256x4, b⟩] concatenates_S8x32x256x252_S8x32x256x4_S8x32x256x256_d3),
    StableHlo.reshape main_v0 main_v1 rfl shapeCasts_S8x32x256x256_S8x32x8x32x8x32,
    StableHlo.unary main_v1 main_v2 ((transpose S8x32x8x8x32x32 [0, 1, 2, 4, 3, 5] · transposes_S8x32x8x32x8x32_S8x32x8x8x32x32_0_1_2_4_3_5) : (⟨S8x32x8x32x8x32, .f32⟩ : BufTy).Contents (Elt F) → (⟨S8x32x8x8x32x32, .f32⟩ : BufTy).Contents (Elt F)),
    StableHlo.reshape main_v2 main_v3 rfl shapeCasts_S8x32x8x8x32x32_S8x2048x32x32,
    StableHlo.nullary main_c_0 (constantI S_ 32 0#32),
    StableHlo.TRef.unary (.of main_arg1 : StableHlo.TRef sig ⟨S8x32x252x252, .f32⟩) (.of main_call1_v0 : StableHlo.TRef sig ⟨S8x32x1x252, .f32⟩) (extractStridedSlice S8x32x1x252 ![0, 0, 0, 0] · slices_S8x32x252x252_S8x32x1x252_0_0_0_0),
    StableHlo.TRef.unary (.of main_arg1 : StableHlo.TRef sig ⟨S8x32x252x252, .f32⟩) (.of main_call1_v1 : StableHlo.TRef sig ⟨S8x32x1x252, .f32⟩) (extractStridedSlice S8x32x1x252 ![0, 0, 251, 0] · slices_S8x32x252x252_S8x32x1x252_0_0_251_0),
    StableHlo.TRef.unary (.of main_arg1 : StableHlo.TRef sig ⟨S8x32x252x252, .f32⟩) (.of main_call1_v2 : StableHlo.TRef sig ⟨S8x32x4x252, .f32⟩) (extractStridedSlice S8x32x4x252 ![0, 0, 247, 0] · slices_S8x32x252x252_S8x32x4x252_0_0_247_0),
    StableHlo.TRef.unary (.of main_call1_v2 : StableHlo.TRef sig ⟨S8x32x4x252, .f32⟩) (.of main_call1_v3 : StableHlo.TRef sig ⟨S8x32x4x252, .f32⟩) (Host.reverse [2]),
    StableHlo.TRef.binary (.of main_arg1 : StableHlo.TRef sig ⟨S8x32x252x252, .f32⟩) main_call1_call0.v0 (.of main_call1_v4 : StableHlo.TRef sig ⟨S8x32x256x252, .f32⟩) (fun a b => concatenate S8x32x256x252 2 [⟨S8x32x252x252, a⟩, ⟨S8x32x4x252, b⟩] concatenates_S8x32x252x252_S8x32x4x252_S8x32x256x252_d2),
    StableHlo.TRef.unary (.of main_call1_v4 : StableHlo.TRef sig ⟨S8x32x256x252, .f32⟩) (.of main_call1_v5 : StableHlo.TRef sig ⟨S8x32x256x1, .f32⟩) (extractStridedSlice S8x32x256x1 ![0, 0, 0, 0] · slices_S8x32x256x252_S8x32x256x1_0_0_0_0),
    StableHlo.TRef.unary (.of main_call1_v4 : StableHlo.TRef sig ⟨S8x32x256x252, .f32⟩) (.of main_call1_v6 : StableHlo.TRef sig ⟨S8x32x256x1, .f32⟩) (extractStridedSlice S8x32x256x1 ![0, 0, 0, 251] · slices_S8x32x256x252_S8x32x256x1_0_0_0_251),
    StableHlo.TRef.unary (.of main_call1_v4 : StableHlo.TRef sig ⟨S8x32x256x252, .f32⟩) (.of main_call1_v7 : StableHlo.TRef sig ⟨S8x32x256x4, .f32⟩) (extractStridedSlice S8x32x256x4 ![0, 0, 0, 247] · slices_S8x32x256x252_S8x32x256x4_0_0_0_247),
    StableHlo.TRef.unary (.of main_call1_v7 : StableHlo.TRef sig ⟨S8x32x256x4, .f32⟩) (.of main_call1_v8 : StableHlo.TRef sig ⟨S8x32x256x4, .f32⟩) (Host.reverse [3]),
    StableHlo.TRef.binary (.of main_call1_v4 : StableHlo.TRef sig ⟨S8x32x256x252, .f32⟩) main_call1_call1.v0 (.of main_v4 : StableHlo.TRef sig ⟨S8x32x256x256, .f32⟩) (fun a b => concatenate S8x32x256x256 3 [⟨S8x32x256x252, a⟩, ⟨S8x32x256x4, b⟩] concatenates_S8x32x256x252_S8x32x256x4_S8x32x256x256_d3),
    StableHlo.reshape main_v4 main_v5 rfl shapeCasts_S8x32x256x256_S8x32x8x32x8x32,
    StableHlo.unary main_v5 main_v6 ((transpose S8x32x8x8x32x32 [0, 1, 2, 4, 3, 5] · transposes_S8x32x8x32x8x32_S8x32x8x8x32x32_0_1_2_4_3_5) : (⟨S8x32x8x32x8x32, .f32⟩ : BufTy).Contents (Elt F) → (⟨S8x32x8x8x32x32, .f32⟩ : BufTy).Contents (Elt F)),
    StableHlo.reshape main_v6 main_v7 rfl shapeCasts_S8x32x8x8x32x32_S8x2048x32x32,
    StableHlo.nullary main_c_1 (constantI S_ 32 0#32),
    StableHlo.TRef.unary (.of main_arg2 : StableHlo.TRef sig ⟨S8x32x252x252, .f32⟩) (.of main_call2_v0 : StableHlo.TRef sig ⟨S8x32x1x252, .f32⟩) (extractStridedSlice S8x32x1x252 ![0, 0, 0, 0] · slices_S8x32x252x252_S8x32x1x252_0_0_0_0),
    StableHlo.TRef.unary (.of main_arg2 : StableHlo.TRef sig ⟨S8x32x252x252, .f32⟩) (.of main_call2_v1 : StableHlo.TRef sig ⟨S8x32x1x252, .f32⟩) (extractStridedSlice S8x32x1x252 ![0, 0, 251, 0] · slices_S8x32x252x252_S8x32x1x252_0_0_251_0),
    StableHlo.TRef.unary (.of main_arg2 : StableHlo.TRef sig ⟨S8x32x252x252, .f32⟩) (.of main_call2_v2 : StableHlo.TRef sig ⟨S8x32x4x252, .f32⟩) (extractStridedSlice S8x32x4x252 ![0, 0, 247, 0] · slices_S8x32x252x252_S8x32x4x252_0_0_247_0),
    StableHlo.TRef.unary (.of main_call2_v2 : StableHlo.TRef sig ⟨S8x32x4x252, .f32⟩) (.of main_call2_v3 : StableHlo.TRef sig ⟨S8x32x4x252, .f32⟩) (Host.reverse [2]),
    StableHlo.TRef.binary (.of main_arg2 : StableHlo.TRef sig ⟨S8x32x252x252, .f32⟩) main_call2_call0.v0 (.of main_call2_v4 : StableHlo.TRef sig ⟨S8x32x256x252, .f32⟩) (fun a b => concatenate S8x32x256x252 2 [⟨S8x32x252x252, a⟩, ⟨S8x32x4x252, b⟩] concatenates_S8x32x252x252_S8x32x4x252_S8x32x256x252_d2),
    StableHlo.TRef.unary (.of main_call2_v4 : StableHlo.TRef sig ⟨S8x32x256x252, .f32⟩) (.of main_call2_v5 : StableHlo.TRef sig ⟨S8x32x256x1, .f32⟩) (extractStridedSlice S8x32x256x1 ![0, 0, 0, 0] · slices_S8x32x256x252_S8x32x256x1_0_0_0_0),
    StableHlo.TRef.unary (.of main_call2_v4 : StableHlo.TRef sig ⟨S8x32x256x252, .f32⟩) (.of main_call2_v6 : StableHlo.TRef sig ⟨S8x32x256x1, .f32⟩) (extractStridedSlice S8x32x256x1 ![0, 0, 0, 251] · slices_S8x32x256x252_S8x32x256x1_0_0_0_251),
    StableHlo.TRef.unary (.of main_call2_v4 : StableHlo.TRef sig ⟨S8x32x256x252, .f32⟩) (.of main_call2_v7 : StableHlo.TRef sig ⟨S8x32x256x4, .f32⟩) (extractStridedSlice S8x32x256x4 ![0, 0, 0, 247] · slices_S8x32x256x252_S8x32x256x4_0_0_0_247),
    StableHlo.TRef.unary (.of main_call2_v7 : StableHlo.TRef sig ⟨S8x32x256x4, .f32⟩) (.of main_call2_v8 : StableHlo.TRef sig ⟨S8x32x256x4, .f32⟩) (Host.reverse [3]),
    StableHlo.TRef.binary (.of main_call2_v4 : StableHlo.TRef sig ⟨S8x32x256x252, .f32⟩) main_call2_call1.v0 (.of main_v8 : StableHlo.TRef sig ⟨S8x32x256x256, .f32⟩) (fun a b => concatenate S8x32x256x256 3 [⟨S8x32x256x252, a⟩, ⟨S8x32x256x4, b⟩] concatenates_S8x32x256x252_S8x32x256x4_S8x32x256x256_d3),
    StableHlo.reshape main_v8 main_v9 rfl shapeCasts_S8x32x256x256_S8x32x8x32x8x32,
    StableHlo.unary main_v9 main_v10 ((transpose S8x32x8x8x32x32 [0, 1, 2, 4, 3, 5] · transposes_S8x32x8x32x8x32_S8x32x8x8x32x32_0_1_2_4_3_5) : (⟨S8x32x8x32x8x32, .f32⟩ : BufTy).Contents (Elt F) → (⟨S8x32x8x8x32x32, .f32⟩ : BufTy).Contents (Elt F)),
    StableHlo.reshape main_v10 main_v11 rfl shapeCasts_S8x32x8x8x32x32_S8x2048x32x32,
    StableHlo.unary main_v3 main_v12 ((transpose S8x32x32x2048 [0, 2, 3, 1] · transposes_S8x2048x32x32_S8x32x32x2048_0_2_3_1) : (⟨S8x2048x32x32, .f32⟩ : BufTy).Contents (Elt F) → (⟨S8x32x32x2048, .f32⟩ : BufTy).Contents (Elt F)),
    StableHlo.reshape main_v12 main_v13 rfl shapeCasts_S8x32x32x2048_S8x1024x2048,
    StableHlo.unary main_v7 main_v14 ((transpose S8x32x32x2048 [0, 2, 3, 1] · transposes_S8x2048x32x32_S8x32x32x2048_0_2_3_1) : (⟨S8x2048x32x32, .f32⟩ : BufTy).Contents (Elt F) → (⟨S8x32x32x2048, .f32⟩ : BufTy).Contents (Elt F)),
    StableHlo.reshape main_v14 main_v15 rfl shapeCasts_S8x32x32x2048_S8x1024x2048,
    StableHlo.unary main_v11 main_v16 ((transpose S8x32x32x2048 [0, 2, 3, 1] · transposes_S8x2048x32x32_S8x32x32x2048_0_2_3_1) : (⟨S8x2048x32x32, .f32⟩ : BufTy).Contents (Elt F) → (⟨S8x32x32x2048, .f32⟩ : BufTy).Contents (Elt F)),
    StableHlo.reshape main_v16 main_v17 rfl shapeCasts_S8x32x32x2048_S8x1024x2048,
    StableHlo.binary main_v13 main_v13 main_v18 (mulf : (⟨S8x1024x2048, .f32⟩ : BufTy).Contents (Elt F) → (⟨S8x1024x2048, .f32⟩ : BufTy).Contents (Elt F) → (⟨S8x1024x2048, .f32⟩ : BufTy).Contents (Elt F)),
    StableHlo.nullary main_cst (constant S_ .f32 0x00000000#32),
    StableHlo.binary main_v18 main_cst main_v19 ((fun x v => Host.reduceAdd x v reducesTo_S8x1024x2048_S8x2048_d1 h_S_) : (⟨S8x1024x2048, .f32⟩ : BufTy).Contents (Elt F) → (⟨S_, .f32⟩ : BufTy).Contents (Elt F) → (⟨S8x2048, .f32⟩ : BufTy).Contents (Elt F)),
    StableHlo.unary main_v19 main_v20 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v20 main_v21 (Host.sqrt : (⟨S8x1x2048, .f32⟩ : BufTy).Contents (Elt F) → (⟨S8x1x2048, .f32⟩ : BufTy).Contents (Elt F)),
    StableHlo.nullary main_cst_2 (constant S_ .f32 0x2B8CBCCC#32),
    StableHlo.unary main_cst_2 main_v22 (broadcastInDim S8x1x2048 ![] bcast_S_S8x1x2048 : (⟨S_, .f32⟩ : BufTy).Contents (Elt F) → (⟨S8x1x2048, .f32⟩ : BufTy).Contents (Elt F)),
    StableHlo.binary main_v21 main_v22 main_v23 (maximumf : (⟨S8x1x2048, .f32⟩ : BufTy).Contents (Elt F) → (⟨S8x1x2048, .f32⟩ : BufTy).Contents (Elt F) → (⟨S8x1x2048, .f32⟩ : BufTy).Contents (Elt F)),
    StableHlo.unary main_v23 main_v24 (broadcastInDim S8x1024x2048 ![0, 1, 2] bcast_S8x1x2048_S8x1024x2048_0_1_2 : (⟨S8x1x2048, .f32⟩ : BufTy).Contents (Elt F) → (⟨S8x1024x2048, .f32⟩ : BufTy).Contents (Elt F)),
    StableHlo.binary main_v13 main_v24 main_v25 (Host.divf : (⟨S8x1024x2048, .f32⟩ : BufTy).Contents (Elt F) → (⟨S8x1024x2048, .f32⟩ : BufTy).Contents (Elt F) → (⟨S8x1024x2048, .f32⟩ : BufTy).Contents (Elt F)),
    StableHlo.binary main_v15 main_v15 main_v26 (mulf : (⟨S8x1024x2048, .f32⟩ : BufTy).Contents (Elt F) → (⟨S8x1024x2048, .f32⟩ : BufTy).Contents (Elt F) → (⟨S8x1024x2048, .f32⟩ : BufTy).Contents (Elt F)),
    StableHlo.nullary main_cst_3 (constant S_ .f32 0x00000000#32),
    StableHlo.binary main_v26 main_cst_3 main_v27 ((fun x v => Host.reduceAdd x v reducesTo_S8x1024x2048_S8x2048_d1 h_S_) : (⟨S8x1024x2048, .f32⟩ : BufTy).Contents (Elt F) → (⟨S_, .f32⟩ : BufTy).Contents (Elt F) → (⟨S8x2048, .f32⟩ : BufTy).Contents (Elt F)),
    StableHlo.unary main_v27 main_v28 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v28 main_v29 (Host.sqrt : (⟨S8x1x2048, .f32⟩ : BufTy).Contents (Elt F) → (⟨S8x1x2048, .f32⟩ : BufTy).Contents (Elt F)),
    StableHlo.nullary main_cst_4 (constant S_ .f32 0x2B8CBCCC#32),
    StableHlo.unary main_cst_4 main_v30 (broadcastInDim S8x1x2048 ![] bcast_S_S8x1x2048 : (⟨S_, .f32⟩ : BufTy).Contents (Elt F) → (⟨S8x1x2048, .f32⟩ : BufTy).Contents (Elt F)),
    StableHlo.binary main_v29 main_v30 main_v31 (maximumf : (⟨S8x1x2048, .f32⟩ : BufTy).Contents (Elt F) → (⟨S8x1x2048, .f32⟩ : BufTy).Contents (Elt F) → (⟨S8x1x2048, .f32⟩ : BufTy).Contents (Elt F)),
    StableHlo.unary main_v31 main_v32 (broadcastInDim S8x1024x2048 ![0, 1, 2] bcast_S8x1x2048_S8x1024x2048_0_1_2 : (⟨S8x1x2048, .f32⟩ : BufTy).Contents (Elt F) → (⟨S8x1024x2048, .f32⟩ : BufTy).Contents (Elt F)),
    StableHlo.binary main_v15 main_v32 main_v33 (Host.divf : (⟨S8x1024x2048, .f32⟩ : BufTy).Contents (Elt F) → (⟨S8x1024x2048, .f32⟩ : BufTy).Contents (Elt F) → (⟨S8x1024x2048, .f32⟩ : BufTy).Contents (Elt F)),
    StableHlo.binary main_v17 main_v17 main_v34 (mulf : (⟨S8x1024x2048, .f32⟩ : BufTy).Contents (Elt F) → (⟨S8x1024x2048, .f32⟩ : BufTy).Contents (Elt F) → (⟨S8x1024x2048, .f32⟩ : BufTy).Contents (Elt F)),
    StableHlo.nullary main_cst_5 (constant S_ .f32 0x00000000#32),
    StableHlo.binary main_v34 main_cst_5 main_v35 ((fun x v => Host.reduceAdd x v reducesTo_S8x1024x2048_S8x2048_d1 h_S_) : (⟨S8x1024x2048, .f32⟩ : BufTy).Contents (Elt F) → (⟨S_, .f32⟩ : BufTy).Contents (Elt F) → (⟨S8x2048, .f32⟩ : BufTy).Contents (Elt F)),
    StableHlo.unary main_v35 main_v36 (broadcastInDim S8x1x2048 ![0, 2] bcast_S8x2048_S8x1x2048_0_2 : (⟨S8x2048, .f32⟩ : BufTy).Contents (Elt F) → (⟨S8x1x2048, .f32⟩ : BufTy).Contents (Elt F)),
    StableHlo.unary main_v36 main_v37 (Host.sqrt : (⟨S8x1x2048, .f32⟩ : BufTy).Contents (Elt F) → (⟨S8x1x2048, .f32⟩ : BufTy).Contents (Elt F)),
    StableHlo.nullary main_cst_6 (constant S_ .f32 0x2B8CBCCC#32),
    StableHlo.unary main_cst_6 main_v38 (broadcastInDim S8x1x2048 ![] bcast_S_S8x1x2048 : (⟨S_, .f32⟩ : BufTy).Contents (Elt F) → (⟨S8x1x2048, .f32⟩ : BufTy).Contents (Elt F)),
    StableHlo.binary main_v37 main_v38 main_v39 (maximumf : (⟨S8x1x2048, .f32⟩ : BufTy).Contents (Elt F) → (⟨S8x1x2048, .f32⟩ : BufTy).Contents (Elt F) → (⟨S8x1x2048, .f32⟩ : BufTy).Contents (Elt F)),
    StableHlo.unary main_v39 main_v40 (broadcastInDim S8x1024x2048 ![0, 1, 2] bcast_S8x1x2048_S8x1024x2048_0_1_2 : (⟨S8x1x2048, .f32⟩ : BufTy).Contents (Elt F) → (⟨S8x1024x2048, .f32⟩ : BufTy).Contents (Elt F)),
    StableHlo.binary main_v17 main_v40 main_v41 (Host.divf : (⟨S8x1024x2048, .f32⟩ : BufTy).Contents (Elt F) → (⟨S8x1024x2048, .f32⟩ : BufTy).Contents (Elt F) → (⟨S8x1024x2048, .f32⟩ : BufTy).Contents (Elt F)) ]

/-- The second stretch: logits, row softmax, and the product with the values. -/
abbrev opsAttn : List (HloOp τ sig (Elt F)) :=
  [ StableHlo.binary main_v25 main_v33 main_v42 ((fun l r => Host.dotGeneral dot_S8x1024x2048_S8x1024x2048_S8x1024x1024_2_2_1_1_0_0 none l r) : (⟨S8x1024x2048, .f32⟩ : BufTy).Contents (Elt F) → (⟨S8x1024x2048, .f32⟩ : BufTy).Contents (Elt F) → (⟨S8x1024x1024, .f32⟩ : BufTy).Contents (Elt F)),
    StableHlo.nullary main_cst_7 (constant S_ .f32 0x3CB504F3#32),
    StableHlo.unary main_cst_7 main_v43 (broadcastInDim S8x1024x1024 ![] bcast_S_S8x1024x1024 : (⟨S_, .f32⟩ : BufTy).Contents (Elt F) → (⟨S8x1024x1024, .f32⟩ : BufTy).Contents (Elt F)),
    StableHlo.binary main_v42 main_v43 main_v44 (mulf : (⟨S8x1024x1024, .f32⟩ : BufTy).Contents (Elt F) → (⟨S8x1024x1024, .f32⟩ : BufTy).Contents (Elt F) → (⟨S8x1024x1024, .f32⟩ : BufTy).Contents (Elt F)),
    StableHlo.nullary main_cst_8 (constant S_ .f32 0xFF800000#32),
    StableHlo.binary main_v44 main_cst_8 main_v45 ((fun x v => Host.reduce FloatOps.maximumf x v reducesTo_S8x1024x1024_S8x1024_d2 h_S_) : (⟨S8x1024x1024, .f32⟩ : BufTy).Contents (Elt F) → (⟨S_, .f32⟩ : BufTy).Contents (Elt F) → (⟨S8x1024, .f32⟩ : BufTy).Contents (Elt F)),
    StableHlo.nullary main_cst_9 (constant S_ .f32 0xFF800000#32),
    StableHlo.unary main_cst_9 main_v46 (broadcastInDim S8x1024 ![] bcast_S_S8x1024 : (⟨S_, .f32⟩ : BufTy).Contents (Elt F) → (⟨S8x1024, .f32⟩ : BufTy).Contents (Elt F)),
    StableHlo.binary main_v46 main_v45 main_v47 (maximumf : (⟨S8x1024, .f32⟩ : BufTy).Contents (Elt F) → (⟨S8x1024, .f32⟩ : BufTy).Contents (Elt F) → (⟨S8x1024, .f32⟩ : BufTy).Contents (Elt F)),
    StableHlo.unary main_v47 main_v48 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_v48 main_v49 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    StableHlo.binary main_v44 main_v49 main_v50 (subf : (⟨S8x1024x1024, .f32⟩ : BufTy).Contents (Elt F) → (⟨S8x1024x1024, .f32⟩ : BufTy).Contents (Elt F) → (⟨S8x1024x1024, .f32⟩ : BufTy).Contents (Elt F)),
    StableHlo.unary main_v50 main_v51 (Host.exp : (⟨S8x1024x1024, .f32⟩ : BufTy).Contents (Elt F) → (⟨S8x1024x1024, .f32⟩ : BufTy).Contents (Elt F)),
    StableHlo.nullary main_cst_10 (constant S_ .f32 0x00000000#32),
    StableHlo.binary main_v51 main_cst_10 main_v52 ((fun x v => Host.reduceAdd x v reducesTo_S8x1024x1024_S8x1024_d2 h_S_) : (⟨S8x1024x1024, .f32⟩ : BufTy).Contents (Elt F) → (⟨S_, .f32⟩ : BufTy).Contents (Elt F) → (⟨S8x1024, .f32⟩ : BufTy).Contents (Elt F)),
    StableHlo.unary main_v52 main_v53 (broadcastInDim S8x1024x1 ![0, 1] bcast_S8x1024_S8x1024x1_0_1 : (⟨S8x1024, .f32⟩ : BufTy).Contents (Elt F) → (⟨S8x1024x1, .f32⟩ : BufTy).Contents (Elt F)),
    StableHlo.unary main_v53 main_v54 (broadcastInDim S8x1024x1024 ![0, 1, 2] bcast_S8x1024x1_S8x1024x1024_0_1_2 : (⟨S8x1024x1, .f32⟩ : BufTy).Contents (Elt F) → (⟨S8x1024x1024, .f32⟩ : BufTy).Contents (Elt F)),
    StableHlo.binary main_v51 main_v54 main_v55 (Host.divf : (⟨S8x1024x1024, .f32⟩ : BufTy).Contents (Elt F) → (⟨S8x1024x1024, .f32⟩ : BufTy).Contents (Elt F) → (⟨S8x1024x1024, .f32⟩ : BufTy).Contents (Elt F)),
    StableHlo.binary main_v55 main_v41 main_v56 ((fun l r => Host.dotGeneral dot_S8x1024x1024_S8x1024x2048_S8x1024x2048_2_1_1_2_0_0 none l r) : (⟨S8x1024x1024, .f32⟩ : BufTy).Contents (Elt F) → (⟨S8x1024x2048, .f32⟩ : BufTy).Contents (Elt F) → (⟨S8x1024x2048, .f32⟩ : BufTy).Contents (Elt F)) ]

/-- The third stretch: the windows put back and the padding cut off. -/
abbrev opsBack : List (HloOp τ sig (Elt F)) :=
  [ StableHlo.reshape main_v56 main_v57 rfl shapeCasts_S8x1024x2048_S8x32x32x32x8x8,
    StableHlo.unary main_v57 main_v58 ((transpose S8x32x8x32x8x32 [0, 3, 4, 1, 5, 2] · transposes_S8x32x32x32x8x8_S8x32x8x32x8x32_0_3_4_1_5_2) : (⟨S8x32x32x32x8x8, .f32⟩ : BufTy).Contents (Elt F) → (⟨S8x32x8x32x8x32, .f32⟩ : BufTy).Contents (Elt F)),
    StableHlo.reshape main_v58 main_v59 rfl shapeCasts_S8x32x8x32x8x32_S8x32x256x256,
    StableHlo.unary main_v59 main_v60 ((extractStridedSlice S8x32x252x252 ![0, 0, 0, 0] · slices_S8x32x256x256_S8x32x252x252_0_0_0_0) : (⟨S8x32x256x256, .f32⟩ : BufTy).Contents (Elt F) → (⟨S8x32x252x252, .f32⟩ : BufTy).Contents (Elt F)) ]

/-- @main's operations, in order. -/
abbrev ops : List (HloOp τ sig (Elt F)) := opsPrep ++ (opsAttn ++ opsBack)

/-- @main is that straight line (the calls' bodies unfolded at their sites). -/
theorem main_eq (c : Dev nD) : main (F := F) c = seq ops := by
  chain_rfl

theorem scopedRefs_eq : (Finset.univ.filter fun b : Ref sig .tc => b.isScoped) = ∅ := by decide
theorem scopedSems_eq : (Finset.univ.filter fun sm : SemLoc sig => sm.isScoped .tc) = ∅ := by decide

theorem opsPrep_sub : (opsPrep : List (HloOp τ sig (Elt F))).Forall fun op => op.bufs ⊆ tcRefs τ sig :=
  ⟨nullary_bufs_sub .., unary_bufs_sub .., unary_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., nullary_bufs_sub .., unary_bufs_sub .., unary_bufs_sub .., unary_bufs_sub .., unary_bufs_sub .., binary_bufs_sub .., unary_bufs_sub .., unary_bufs_sub .., unary_bufs_sub .., unary_bufs_sub .., binary_bufs_sub .., reshape_bufs_sub .., unary_bufs_sub .., reshape_bufs_sub .., unary_bufs_sub .., reshape_bufs_sub .., unary_bufs_sub .., reshape_bufs_sub .., unary_bufs_sub .., reshape_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem opsAttn_sub : (opsAttn : List (HloOp τ sig (Elt F))).Forall fun op => op.bufs ⊆ tcRefs τ sig :=
  ⟨binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., binary_bufs_sub ..⟩
theorem opsBack_sub : (opsBack : List (HloOp τ sig (Elt F))).Forall fun op => op.bufs ⊆ tcRefs τ sig :=
  ⟨reshape_bufs_sub .., unary_bufs_sub .., reshape_bufs_sub .., unary_bufs_sub ..⟩

theorem ops_sub : (ops : List (HloOp τ sig (Elt F))).Forall fun op => op.bufs ⊆ tcRefs τ sig := by
  refine List.forall_iff_forall_mem.mpr fun op hop => ?_
  rcases List.mem_append.mp hop with h | h
  · exact List.forall_iff_forall_mem.mp opsPrep_sub op h
  · rcases List.mem_append.mp h with h | h
    · exact List.forall_iff_forall_mem.mp opsAttn_sub op h
    · exact List.forall_iff_forall_mem.mp opsBack_sub op h

theorem opsPrep_fresh : (opsPrep : List (HloOp τ sig (Elt F))).Forall fun op => op.fresh = ∅ := by
  simp only [List.Forall]; repeat' constructor
theorem opsAttn_fresh : (opsAttn : List (HloOp τ sig (Elt F))).Forall fun op => op.fresh = ∅ := by
  simp only [List.Forall]; repeat' constructor
theorem opsBack_fresh : (opsBack : List (HloOp τ sig (Elt F))).Forall fun op => op.fresh = ∅ := by
  simp only [List.Forall]; repeat' constructor

theorem ops_fresh : ∀ op ∈ (ops : List (HloOp τ sig (Elt F))), op.fresh = ∅ := by
  intro op hop
  rcases List.mem_append.mp hop with h | h
  · exact List.forall_iff_forall_mem.mp opsPrep_fresh op h
  · rcases List.mem_append.mp h with h | h
    · exact List.forall_iff_forall_mem.mp opsAttn_fresh op h
    · exact List.forall_iff_forall_mem.mp opsBack_fresh op h

/-- Every weakly fair execution of @main terminates, and every final state has each buffer at the fold of the
    operations over its launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The fold over a concatenation is the fold over the second part of the fold over the first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The whole fold, stretch by stretch. -/
theorem after_ops (V : Valuation τ sig (Elt F)) :
    after ops V = after opsBack (after opsAttn (after opsPrep V)) := by
  rw [show (ops : List (HloOp τ sig (Elt F))) = opsPrep ++ (opsAttn ++ opsBack) from rfl, after_append, after_append]

end Cert.ReferenceIdeal.Straight

end
-- ==== Proof.LibStacked.lean ====
/-
  A stack of matrices multiplied member by member with the right operand's rows as the contracted side, and the
  keepdims layout steps of a rank-three array reduced over its last axis, each read entry by entry.

  The product of [G, m, k] by [G, n, k] with batch axes 0 and 0 and both operands contracted on their last axis
  has at (g, a, b) the sum over c of (left at (g, a, c)) times (right at (g, b, c)): the inner products of the
  rows of member g. A reduction of a [p, q, n] array over its last axis ranges, at (x, y), over the entries
  (x, y, k); its [p, q] result laid out as [p, q, 1] and repeated to [p, q, n] has at (x, y, k) the entry (x, y).
-/
import Idealize.ShloMosaic.PureOps.Ideal.Laws
import Idealize.ShloMosaic.Lib.ValueIdx
import Idealize.ShloMosaic.Lib.Pipeline.Value

namespace Cert.Lib.Stacked

open Idealize.ShloMosaic Idealize.ShloMosaic.ValueIdx

variable {α : Type}

/-- The member-by-member inner products of two stacks' rows, read at an index. At the ideal values. -/
theorem dotGeneral_rows_apply {G m n k : ℕ} {φ₁ φ₂ : FTy}
    (w : DotDims.WF ⟨3, ![G, m, k]⟩ ⟨3, ![G, n, k]⟩ ⟨3, ![G, m, n]⟩ [2] [2] [1] [1] [0] [0])
    (prec : Option ContractPrecision) (A : FVec Ideal ⟨3, ![G, m, k]⟩ φ₁) (B : FVec Ideal ⟨3, ![G, n, k]⟩ φ₂)
    (g : Fin G) (a : Fin m) (b : Fin n) :
    Host.dotGeneral (⟨[2], [2], [1], [1], [0], [0], w⟩ : DotDims _ _ _) prec A B (ix3 g a b)
      = ∑ c : Fin k, A (ix3 g a c) * B (ix3 g b c) := by
  show FloatOps.dotGeneral _ prec _ A B (ix3 g a b) = _
  rw [Ideal.dotGeneral_apply,
    ← Equiv.sum_comp (contrEquiv1 (⟨[2], [2], [1], [1], [0], [0], w⟩ : DotDims _ _ _) k rfl rfl).symm]
  refine Finset.sum_congr rfl fun c _ => ?_
  have c3 := contrEquiv1_symm_val
    (⟨[2], [2], [1], [1], [0], [0], w⟩ : DotDims ⟨3, ![G, m, k]⟩ ⟨3, ![G, n, k]⟩ ⟨3, ![G, m, n]⟩) k rfl rfl c
  have l3 : (⟨[2], [2], [1], [1], [0], [0], w⟩ : DotDims ⟨3, ![G, m, k]⟩ ⟨3, ![G, n, k]⟩ ⟨3, ![G, m, n]⟩).lhsIdx (ix3 g a b)
      ((contrEquiv1 _ k rfl rfl).symm c) = ix3 g a c := by
    funext ax; apply Fin.ext
    match ax with
    | ⟨0, _⟩ => simp [DotDims.lhsIdx]; rfl
    | ⟨1, _⟩ => simp [DotDims.lhsIdx]; rfl
    | ⟨2, _⟩ => simp [DotDims.lhsIdx]; exact c3
  have r3 : (⟨[2], [2], [1], [1], [0], [0], w⟩ : DotDims ⟨3, ![G, m, k]⟩ ⟨3, ![G, n, k]⟩ ⟨3, ![G, m, n]⟩).rhsIdx (ix3 g a b)
      ((contrEquiv1 _ k rfl rfl).symm c) = ix3 g b c := by
    funext ax; apply Fin.ext
    match ax with
    | ⟨0, _⟩ => simp [DotDims.rhsIdx]; rfl
    | ⟨1, _⟩ => simp [DotDims.rhsIdx]; rfl
    | ⟨2, _⟩ => simp [DotDims.rhsIdx]; exact c3
  rw [l3, r3]

/-- Reducing a [p, q, n] array over its last axis: the entries that fall on (x, y) are (x, y, k), k below n. -/
theorem lift_last {p q n : ℕ} (h : (⟨3, ![p, q, n]⟩ : Shape).Reduces [2] ⟨2, ![p, q]⟩) (x : Fin p) (y : Fin q) (k : Fin n) :
    h.lift (ix2 x y) k = ix3 x y k := by
  funext c
  apply Fin.ext
  match c with
  | ⟨0, _⟩ => rfl
  | ⟨1, _⟩ => rfl
  | ⟨2, _⟩ => rfl

/-- A [p, q] array laid out as [p, q, 1] reads, at (x, y, u), the operand at (x, y). -/
theorem broadcastInDim_pq_pq1_apply {p q : ℕ} (v : (⟨2, ![p, q]⟩ : Shape).Idx → α)
    (h : (⟨2, ![p, q]⟩ : Shape).BroadcastsInDim ⟨3, ![p, q, 1]⟩ ![0, 1]) (x : Fin p) (y : Fin q) (u : Fin 1) :
    broadcastInDim ⟨3, ![p, q, 1]⟩ ![0, 1] h v (ix3 x y u) = v (ix2 x y) := by
  refine broadcastInDim_apply _ h v (ix3 x y u) (ix2 x y) fun ax => ?_
  match ax with
  | ⟨0, _⟩ =>
    show x.val = if p = 1 then 0 else x.val
    split
    · have := x.isLt; omega
    · rfl
  | ⟨1, _⟩ =>
    show y.val = if q = 1 then 0 else y.val
    split
    · have := y.isLt; omega
    · rfl

/-- A [p, q, 1] array repeated to [p, q, n] reads, at (x, y, k), the operand at (x, y, 0). -/
theorem broadcastInDim_pq1_pqn_apply {p q n : ℕ} (v : (⟨3, ![p, q, 1]⟩ : Shape).Idx → α)
    (h : (⟨3, ![p, q, 1]⟩ : Shape).BroadcastsInDim ⟨3, ![p, q, n]⟩ ![0, 1, 2]) (x : Fin p) (y : Fin q) (k : Fin n) :
    broadcastInDim ⟨3, ![p, q, n]⟩ ![0, 1, 2] h v (ix3 x y k) = v (ix3 x y (0 : Fin 1)) := by
  refine broadcastInDim_apply _ h v (ix3 x y k) (ix3 x y (0 : Fin 1)) fun ax => ?_
  match ax with
  | ⟨0, _⟩ =>
    show x.val = if p = 1 then 0 else x.val
    split
    · have := x.isLt; omega
    · rfl
  | ⟨1, _⟩ =>
    show y.val = if q = 1 then 0 else y.val
    split
    · have := y.isLt; omega
    · rfl
  | ⟨2, _⟩ => rfl

end Cert.Lib.Stacked
-- ==== Proof.RefAttn.lean ====
/-
  The reference's middle stretch, read entry by entry.

  From the three prepared arrays Q, K, V of shape [8, 1024, 2048] the reference forms the [8, 1024, 1024] logits
  (the inner products of Q's rows with K's rows, member by member, times the scale), each row's maximum (taken
  once more against minus infinity, which changes nothing), the exponentials of the logits less it, each row's sum
  of those, the quotients, and their product with V member by member. Entry (b, l, d) of the result is entry d of
  the attention row of Q's row (b, l) against member b's rows of K and V.
-/
import proofs.«149332_j88416196755895_2_alg».proof.Proof.RefRun
import proofs.«149332_j88416196755895_2_alg».proof.Proof.AttnRow
import proofs.«149332_j88416196755895_2_alg».proof.Proof.LibStacked
import Idealize.ShloMosaic.Lib.StackMember
import Idealize.ShloMosaic.Lib.IdealHost

noncomputable section

namespace Cert.ReferenceIdeal.Mid

open Idealize.ShloMosaic Idealize.ShloMosaic.ValueIdx Idealize.ShloMosaic.TcCoe Idealize.ShloMosaic.StableHlo
open Cert.ReferenceIdeal Cert.ReferenceIdeal.Gen Cert.ReferenceIdeal.Straight Cert.Lib

variable (Q K V : FVec Ideal S8x1024x2048 .f32)

/-- The logits: member by member, the inner products of Q's rows with K's rows, times the scale. -/
def logits : FVec Ideal S8x1024x1024 .f32 :=
  mulf (Host.dotGeneral (F := Ideal) dot_S8x1024x2048_S8x1024x2048_S8x1024x1024_2_2_1_1_0_0 none Q K)
    (broadcastInDim S8x1024x1024 ![] bcast_S_S8x1024x1024 (constant (F := Ideal) S_ .f32 0x3CB504F3#32))

theorem logits_apply (b : Fin 8) (l j : Fin 1024) :
    logits Q K (ix3 b l j) = Attn.logit (fun d => Q (ix3 b l d)) (fun j d => K (ix3 b j d)) j := by
  unfold logits Attn.logit
  rw [mulf_apply, broadcastInDim_scalar_apply, constant_apply]
  show Host.dotGeneral (F := Ideal) (⟨[2], [2], [1], [1], [0], [0], dot_S8x1024x2048_S8x1024x2048_S8x1024x1024_2_2_1_1_0_0_wf⟩ :
      DotDims ⟨3, ![8, 1024, 2048]⟩ ⟨3, ![8, 1024, 2048]⟩ ⟨3, ![8, 1024, 1024]⟩) none Q K (ix3 b l j) * Attn.scale = _
  rw [Stacked.dotGeneral_rows_apply]

/-- Each row's largest logit (the host's maximum, once more against minus infinity). -/
def tops : FVec Ideal S8x1024 .f32 :=
  maximumf (broadcastInDim S8x1024 ![] bcast_S_S8x1024 (constant (F := Ideal) S_ .f32 0xFF800000#32))
    (Host.reduce FloatOps.maximumf (logits Q K) (constant (F := Ideal) S_ .f32 0xFF800000#32)
      reducesTo_S8x1024x1024_S8x1024_d2 h_S_)

theorem tops_apply (b : Fin 8) (l : Fin 1024) :
    tops Q K (ix2 b l) = Attn.top (Attn.logit (fun d => Q (ix3 b l d)) (fun j d => K (ix3 b j d))) := by
  unfold tops
  rw [maximumf_apply, broadcastInDim_scalar_apply, constant_apply]
  have hred : S8x1024x1024.Reduces [2] S8x1024 := by decide
  have hfold : Host.reduce FloatOps.maximumf (logits Q K) (constant (F := Ideal) S_ .f32 0xFF800000#32)
      reducesTo_S8x1024x1024_S8x1024_d2 h_S_ (ix2 b l)
      = Attn.top (Attn.logit (fun d => Q (ix3 b l d)) (fun j d => K (ix3 b j d))) := by
    refine (Host.reduce_eq_fold_single (FloatOps.maximumf (F := Ideal) (φ := .f32)) (logits Q K) _ reducesTo_S8x1024x1024_S8x1024_d2 hred h_S_ (ix2 b l)).trans ?_
    unfold Attn.top
    exact congrArg (Finset.fold max Attn.floor · Finset.univ) (funext fun k =>
      (congrArg (logits Q K) (Stacked.lift_last hred b l k)).trans (logits_apply Q K b l k))
  rw [hfold]
  exact max_eq_right ((Finset.le_fold_max Attn.floor).mpr (Or.inl le_rfl))

/-- The exponentials of the logits less their row's maximum. -/
def expo : FVec Ideal S8x1024x1024 .f32 :=
  Host.exp (subf (logits Q K)
    (broadcastInDim S8x1024x1024 ![0, 1, 2] bcast_S8x1024x1_S8x1024x1024_0_1_2
      (broadcastInDim S8x1024x1 ![0, 1] bcast_S8x1024_S8x1024x1_0_1 (tops Q K))))

theorem expo_apply (b : Fin 8) (l j : Fin 1024) :
    expo Q K (ix3 b l j) = Attn.weight (Attn.logit (fun d => Q (ix3 b l d)) (fun j d => K (ix3 b j d))) j := by
  unfold expo Attn.weight
  show Ideal.exp (subf (F := Ideal) _ _ (ix3 b l j)) = _
  rw [subf_apply, Stacked.broadcastInDim_pq1_pqn_apply, Stacked.broadcastInDim_pq_pq1_apply, logits_apply, tops_apply]

/-- Each row's sum of exponentials. -/
def sums : FVec Ideal S8x1024 .f32 :=
  Host.reduceAdd (expo Q K) (constant (F := Ideal) S_ .f32 0x00000000#32) reducesTo_S8x1024x1024_S8x1024_d2 h_S_

theorem sums_apply (b : Fin 8) (l : Fin 1024) :
    sums Q K (ix2 b l)
      = ∑ j : Fin 1024, Attn.weight (Attn.logit (fun d => Q (ix3 b l d)) (fun j d => K (ix3 b j d))) j := by
  unfold sums
  have hred : S8x1024x1024.Reduces [2] S8x1024 := by decide
  rw [hostReduceAdd_apply]
  refine (Ideal.hostReduceAdd_single reducesTo_S8x1024x1024_S8x1024_d2 hred (expo Q K) _ (ix2 b l)).trans ?_
  rw [constant_apply, Ideal.ofBits_zero_f32, zero_add]
  exact Finset.sum_congr rfl fun k _ =>
    (congrArg (expo Q K) (Stacked.lift_last hred b l k)).trans (expo_apply Q K b l k)

/-- The middle stretch's result: the normalised weights times V, member by member. -/
def attn : FVec Ideal S8x1024x2048 .f32 :=
  Host.dotGeneral (F := Ideal) dot_S8x1024x1024_S8x1024x2048_S8x1024x2048_2_1_1_2_0_0 none
    (Host.divf (expo Q K)
      (broadcastInDim S8x1024x1024 ![0, 1, 2] bcast_S8x1024x1_S8x1024x1024_0_1_2
        (broadcastInDim S8x1024x1 ![0, 1] bcast_S8x1024_S8x1024x1_0_1 (sums Q K))))
    V

/-- Entry (b, l, d) of the middle stretch's result is entry d of the attention row of Q's row (b, l). -/
theorem attn_apply (b : Fin 8) (l : Fin 1024) (d : Fin 2048) :
    attn Q K V (ix3 b l d)
      = Attn.row (fun d => Q (ix3 b l d)) (fun j d => K (ix3 b j d)) (fun j d => V (ix3 b j d)) d := by
  unfold attn Attn.row
  show Host.dotGeneral (F := Ideal) (⟨[2], [1], [1], [2], [0], [0], dot_S8x1024x1024_S8x1024x2048_S8x1024x2048_2_1_1_2_0_0_wf⟩ :
      DotDims ⟨3, ![8, 1024, 1024]⟩ ⟨3, ![8, 1024, 2048]⟩ ⟨3, ![8, 1024, 2048]⟩) none _ V (ix3 b l d) = _
  rw [StackMember.dotGeneral_stack_apply]
  refine Finset.sum_congr rfl fun j _ => ?_
  rw [hostDivf_apply, Stacked.broadcastInDim_pq1_pqn_apply, Stacked.broadcastInDim_pq_pq1_apply, expo_apply, sums_apply]

/-- The fold of the middle stretch at its result buffer is that function of the three prepared buffers. -/
theorem mid_eq (W : Valuation τ sig (Elt Ideal)) :
    after opsAttn W (Proc.devRef .tc main_v56)
      = attn (W (Proc.devRef .tc main_v25)) (W (Proc.devRef .tc main_v33)) (W (Proc.devRef .tc main_v41)) := by
  after_results_simp
  rfl

end Cert.ReferenceIdeal.Mid

end
-- ==== Proof.Bridge.lean ====
/-
  The two programs meet.

  Both programs prepare each argument by the same operations (the reflect-padding, the cut into windows, the
  regrouping into tokens, the division by the token-axis norm), and both end with the same four operations that
  regroup the attention result into images. So each prepared array is one term of its argument in both programs
  (the kernel's copy narrowed to half precision, the identity on the extended reals), the last four operations
  are one function of the attention result, and between them the kernel's blocks and the reference's
  whole-array operations compute, entry by entry, the same attention row.
-/
import proofs.«149332_j88416196755895_2_alg».proof.Proof.KernelValue
import proofs.«149332_j88416196755895_2_alg».proof.Proof.RefAttn

set_option maxRecDepth 65536

noncomputable section

namespace Cert.Meet

open Idealize.ShloMosaic Idealize.ShloMosaic.ValueIdx Idealize.ShloMosaic.TcCoe Idealize.SL.Sem Idealize.ShloMosaic.StableHlo

/-- Reads the remaining results of a fold, one operation at a time. -/
macro "read_results" : tactic =>
  `(tactic| (repeat (first
      | rw [nullary_result] | rw [unary_result] | rw [binary_result] | rw [reshape_result]
      | (rw [nullary_result_ne]; rotate_left; decide)
      | (rw [unary_result_ne]; rotate_left; decide)
      | (rw [binary_result_ne]; rotate_left; decide)
      | (rw [reshape_result_ne]; rotate_left; decide))))

section Prepared

variable (L' : Valuation Cert.ReferenceIdeal.τ Cert.ReferenceIdeal.sig (Elt Ideal))
  (L : Valuation Cert.KernelIdeal.τ Cert.KernelIdeal.sig (Elt Ideal))

set_option maxHeartbeats 4000000 in
/-- The first prepared array: the reference's and the kernel's staged copy are one term of the first argument. -/
theorem prep_q (h : L' (Proc.devRef .tc Cert.ReferenceIdeal.main_arg0) = L (Proc.devRef .tc Cert.KernelIdeal.main_arg0)) :
    after Cert.ReferenceIdeal.Straight.opsPrep L' (Proc.devRef .tc Cert.ReferenceIdeal.main_v25)
      = after (List.flatten [Cert.KernelIdeal.Gen.hostOps0, Cert.KernelIdeal.Gen.hostOps0_1, Cert.KernelIdeal.Gen.hostOps0_2,
          Cert.KernelIdeal.Gen.hostOps0_3, Cert.KernelIdeal.Gen.hostOps0_4, Cert.KernelIdeal.Gen.hostOps0_5,
          Cert.KernelIdeal.Gen.hostOps0_6]) L (Proc.devRef .tc Cert.KernelIdeal.main_v42) := by
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.ReferenceIdeal.Straight.opsPrep,
    List.flatten_cons, List.flatten_nil, List.append_nil, List.cons_append, List.nil_append]
  simp only [TRef.unary, TRef.binary, TRef.nullary, TRef.toBuf, TRef.ofBuf, TRef.of, cast_eq]
  after_results_simp
  read_results
  rw [h]
  rfl

set_option maxHeartbeats 4000000 in
/-- The second prepared array: the reference's and the kernel's staged copy are one term of the second argument. -/
theorem prep_k (h : L' (Proc.devRef .tc Cert.ReferenceIdeal.main_arg1) = L (Proc.devRef .tc Cert.KernelIdeal.main_arg1)) :
    after Cert.ReferenceIdeal.Straight.opsPrep L' (Proc.devRef .tc Cert.ReferenceIdeal.main_v33)
      = after (List.flatten [Cert.KernelIdeal.Gen.hostOps0, Cert.KernelIdeal.Gen.hostOps0_1, Cert.KernelIdeal.Gen.hostOps0_2,
          Cert.KernelIdeal.Gen.hostOps0_3, Cert.KernelIdeal.Gen.hostOps0_4, Cert.KernelIdeal.Gen.hostOps0_5,
          Cert.KernelIdeal.Gen.hostOps0_6]) L (Proc.devRef .tc Cert.KernelIdeal.main_v43) := by
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.ReferenceIdeal.Straight.opsPrep,
    List.flatten_cons, List.flatten_nil, List.append_nil, List.cons_append, List.nil_append]
  simp only [TRef.unary, TRef.binary, TRef.nullary, TRef.toBuf, TRef.ofBuf, TRef.of, cast_eq]
  after_results_simp
  read_results
  rw [h]
  rfl

set_option maxHeartbeats 4000000 in
/-- The third prepared array: the reference's and the kernel's staged copy are one term of the third argument. -/
theorem prep_v (h : L' (Proc.devRef .tc Cert.ReferenceIdeal.main_arg2) = L (Proc.devRef .tc Cert.KernelIdeal.main_arg2)) :
    after Cert.ReferenceIdeal.Straight.opsPrep L' (Proc.devRef .tc Cert.ReferenceIdeal.main_v41)
      = after (List.flatten [Cert.KernelIdeal.Gen.hostOps0, Cert.KernelIdeal.Gen.hostOps0_1, Cert.KernelIdeal.Gen.hostOps0_2,
          Cert.KernelIdeal.Gen.hostOps0_3, Cert.KernelIdeal.Gen.hostOps0_4, Cert.KernelIdeal.Gen.hostOps0_5,
          Cert.KernelIdeal.Gen.hostOps0_6]) L (Proc.devRef .tc Cert.KernelIdeal.main_v44) := by
  simp only [Cert.KernelIdeal.Gen.hostOps0, Cert.KernelIdeal.Gen.hostOps0_1, Cert.KernelIdeal.Gen.hostOps0_2,
    Cert.KernelIdeal.Gen.hostOps0_3, Cert.KernelIdeal.Gen.hostOps0_4, Cert.KernelIdeal.Gen.hostOps0_5,
    Cert.KernelIdeal.Gen.hostOps0_6, Cert.ReferenceIdeal.Straight.opsPrep,
    List.flatten_cons, List.flatten_nil, List.append_nil, List.cons_append, List.nil_append]
  simp only [TRef.unary, TRef.binary, TRef.nullary, TRef.toBuf, TRef.ofBuf, TRef.of, cast_eq]
  after_results_simp
  read_results
  rw [h]
  rfl

end Prepared

/-- The reference's last four operations are the kernel program's: one function of the attention result. -/
theorem back_eq (W : Valuation Cert.ReferenceIdeal.τ Cert.ReferenceIdeal.sig (Elt Ideal)) :
    after Cert.ReferenceIdeal.Straight.opsBack W (Proc.devRef .tc Cert.ReferenceIdeal.main_v60)
      = Cert.KernelIdeal.Whole.back (W (Proc.devRef .tc Cert.ReferenceIdeal.main_v56)) := by
  after_results_simp
  rfl

/-- No operation of the reference writes an argument. -/
theorem kept (V : Valuation Cert.ReferenceIdeal.τ Cert.ReferenceIdeal.sig (Elt Ideal)) (r : Ref Cert.ReferenceIdeal.sig .tc)
    (hr : r = Cert.ReferenceIdeal.main_arg0 ∨ r = Cert.ReferenceIdeal.main_arg1 ∨ r = Cert.ReferenceIdeal.main_arg2) :
    after Cert.ReferenceIdeal.Straight.ops V (Proc.devRef .tc r) = V (Proc.devRef .tc r) := by
  refine after_of_forall_not_mem _ _ (List.forall_iff_forall_mem.mp ?_)
  simp only [Cert.ReferenceIdeal.Straight.ops, Cert.ReferenceIdeal.Straight.opsPrep, Cert.ReferenceIdeal.Straight.opsAttn,
    Cert.ReferenceIdeal.Straight.opsBack, List.cons_append, List.nil_append, List.Forall, StableHlo.nullary_writes,
    StableHlo.unary_writes, StableHlo.binary_writes, StableHlo.reshape_writes, Finset.mem_singleton]
  rcases hr with rfl | rfl | rfl
  all_goals
    repeat' apply And.intro
    all_goals exact StableHlo.devRef_ne_of_ne (by decide)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)

/-- From memories agreeing on the arguments, the reference's result buffer ends at the kernel program's result. -/
theorem result (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    after Cert.ReferenceIdeal.Straight.ops (launchContents m' c) (Proc.devRef .tc Cert.ReferenceIdeal.main_v60)
      = Cert.KernelIdeal.Whole.back (Cert.KernelIdeal.Whole.attend (Cert.KernelIdeal.Gen.V m c Cert.KernelIdeal.main_v42)
          (Cert.KernelIdeal.Gen.V m c Cert.KernelIdeal.main_v43) (Cert.KernelIdeal.Gen.V m c Cert.KernelIdeal.main_v44)) := by
  have eq := prep_q (launchContents m' c) (fun b => m (c, b)) h0
  have ek := prep_k (launchContents m' c) (fun b => m (c, b)) h1
  have ev := prep_v (launchContents m' c) (fun b => m (c, b)) h2
  rw [Cert.ReferenceIdeal.Straight.after_ops, back_eq, Cert.ReferenceIdeal.Mid.mid_eq]
  refine congrArg Cert.KernelIdeal.Whole.back (funext fun i => ?_)
  obtain ⟨b, l, d, rfl⟩ : ∃ (b : Fin 8) (l : Fin 1024) (d : Fin 2048), i = ix3 b l d := ⟨i 0, i 1, i 2, eq_ix3 i⟩
  refine (Cert.ReferenceIdeal.Mid.attn_apply _ _ _ b l d).trans ?_
  unfold Cert.KernelIdeal.Whole.attend
  exact Attn.row_congr (fun x => congrFun eq (ix3 b l x)) (fun j x => congrFun ek (ix3 b j x))
    (fun j x => congrFun ev (ix3 b j x)) rfl

end Cert.Meet

end
-- ==== Proof.lean ====
/-
  Windowed attention over 8 x 8 patches: the Pallas kernel against its jnp reference, over the extended reals.

  Both programs take three [8, 32, 252, 252] images, reflect-pad the last two axes to 256, cut every image into
  8 x 8 windows and regroup so that each of the 32 x 32 window positions is a token of 32 * 64 = 2048 features,
  and divide every feature column by its norm over the 1024 tokens (at least 1e-12). On the three prepared
  [8, 1024, 2048] arrays Q, K, V they compute softmax(Q Kᵀ * 2048^(-1/2)) V member by member, and regroup the
  result into [8, 32, 252, 252] images by the inverse cut.

  The kernel narrows Q, K, V to half precision (the identity on the extended reals), runs on a grid of 8 x 4
  points, each forming 256 query rows' logits against all 1024 keys of one member, their row softmax written as
  maximum, exponential, sum and quotient, and the product with the values; the reference does the same with
  whole-array operations (two batched products, a row maximum taken once more against minus infinity, a row sum).
  The scale 2048^(-1/2) and the norm floor 1e-12 are the same single-precision words in both programs, so no
  constant is evaluated, and the two programs differ only in how the rows are tiled: no law beyond reading the
  sums and maxima row by row is needed, and the precondition (finite inputs) is never opened.

  The frames of the two kernel programs are the generated frame certificates; the reference is a straight line
  of 101 host operations whose run is read back by hand. The preserves conjunct is trivial: the ideal pass
  rewrote nothing.
-/
import proofs.«149332_j88416196755895_2_alg».proof.Defs
import proofs.«149332_j88416196755895_2_alg».proof.Proof.Gen.Kernel
import proofs.«149332_j88416196755895_2_alg».proof.Proof.Gen.Kernel.Skeleton
import proofs.«149332_j88416196755895_2_alg».proof.Proof.Gen.Kernel.Launch
import proofs.«149332_j88416196755895_2_alg».proof.Proof.Gen.Kernel.Points
import proofs.«149332_j88416196755895_2_alg».proof.Proof.Gen.Kernel.Frame
import proofs.«149332_j88416196755895_2_alg».proof.Proof.Gen.KernelIdeal
import proofs.«149332_j88416196755895_2_alg».proof.Proof.Gen.KernelIdeal.Skeleton
import proofs.«149332_j88416196755895_2_alg».proof.Proof.Gen.KernelIdeal.Launch
import proofs.«149332_j88416196755895_2_alg».proof.Proof.Gen.KernelIdeal.Points
import proofs.«149332_j88416196755895_2_alg».proof.Proof.Gen.KernelIdeal.Frame
import proofs.«149332_j88416196755895_2_alg».proof.Proof.Gen.ReferenceIdeal
import proofs.«149332_j88416196755895_2_alg».proof.Proof.Gen.Pre_finite_inputs
import proofs.«149332_j88416196755895_2_alg».proof.Proof.Bridge
import Idealize.ShloMosaic.Adequacy
import Idealize.ShloMosaic.Init

noncomputable section

namespace Cert.Proof

open Idealize.ShloMosaic Idealize.ShloMosaic.TcCoe Idealize.SL.Sem Idealize.ShloMosaic.StableHlo

theorem frame_k : Cert.frame_Kernel := fun m ρ _ => Cert.Kernel.Gen.frame m ρ

theorem frame_ki : Cert.frame_KernelIdeal := fun m ρ _ => Cert.KernelIdeal.Gen.frame m ρ

/-- The reference runs and no operation of it writes an argument. -/
theorem frame_ri : Cert.frame_ReferenceIdeal := fun m ρ _ =>
  (θ_run Cert.ReferenceIdeal.defs _ _).mono (fun _ h c =>
    ⟨(h c Cert.ReferenceIdeal.main_arg0).trans (Cert.Meet.kept _ _ (Or.inl rfl)),
      (h c Cert.ReferenceIdeal.main_arg1).trans (Cert.Meet.kept _ _ (Or.inr (Or.inl rfl))),
      (h c Cert.ReferenceIdeal.main_arg2).trans (Cert.Meet.kept _ _ (Or.inr (Or.inr rfl)))⟩)
    (Cert.ReferenceIdeal.Straight.run (F := Ideal) m ρ)

/-- The ideal pass rewrote no operation. -/
theorem preserves : Cert.preserves_Kernel_KernelIdeal := trivial

/-- Both programs end with the regrouped attention of the same three prepared arrays. -/
theorem algebraic : Cert.algebraic_KernelIdeal_ReferenceIdeal := by
  intro m ρ m' ρ' _ hagree
  refine ⟨fun c => Cert.KernelIdeal.Whole.back (Cert.KernelIdeal.Whole.attend
      (Cert.KernelIdeal.Gen.V m c Cert.KernelIdeal.main_v42) (Cert.KernelIdeal.Gen.V m c Cert.KernelIdeal.main_v43)
      (Cert.KernelIdeal.Gen.V m c Cert.KernelIdeal.main_v44)), Cert.KernelIdeal.Whole.run m ρ, ?_⟩
  exact (θ_run Cert.ReferenceIdeal.defs _ _).mono (fun _ h c =>
    ⟨(h c Cert.ReferenceIdeal.main_v60).trans (Cert.Meet.result m m' c (hagree c).1 (hagree c).2.1 (hagree c).2.2),
      (h c Cert.ReferenceIdeal.main_arg0).trans (Cert.Meet.kept _ _ (Or.inl rfl)),
      (h c Cert.ReferenceIdeal.main_arg1).trans (Cert.Meet.kept _ _ (Or.inr (Or.inl rfl))),
      (h c Cert.ReferenceIdeal.main_arg2).trans (Cert.Meet.kept _ _ (Or.inr (Or.inr rfl)))⟩)
    (Cert.ReferenceIdeal.Straight.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
